-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v141) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x2x800000 : Shape := ⟨3, ![2, 2, 800000]⟩
abbrev S2x800000 : Shape := ⟨2, ![2, 800000]⟩
abbrev S2x128x128 : Shape := ⟨3, ![2, 128, 128]⟩
abbrev S2x128 : Shape := ⟨2, ![2, 128]⟩
abbrev S2x128x64 : Shape := ⟨3, ![2, 128, 64]⟩
abbrev S2x64 : Shape := ⟨2, ![2, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg6 : FVec F S2x128x64 .f32) (main_arg7 : FVec F S2x128x64 .f32) (main_arg8 : FVec F S2x64 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x64 .f32 := Host.absf main_arg6
  let main_cst_6 : FVec F S_ .f32 := constant S_ .f32 0x7F800000#32
  let main_v20 : FVec F S2x128x64 .f32 := broadcastInDim S2x128x64 ![] bcast_S_S2x128x64 main_cst_6
  let main_v21 : IVec S2x128x64 1 := cmpf .olt main_v19 main_v20
  let main_c_7 : IVec S_ 1 := constantI S_ 1 1#1
  let main_v22 : IVec S_ 1 := (fun x v => Host.reduce IntOp.andi x v reducesTo_S2x128x64_S_d0_1_2 h_S_) main_v21 main_c_7
  let main_v23 : IVec S_ 1 := andi main_v18 main_v22
  let main_v24 : FVec F S2x128x64 .f32 := Host.absf main_arg7
  let main_cst_8 : FVec F S_ .f32 := constant S_ .f32 0x7F800000#32
  let main_v25 : FVec F S2x128x64 .f32 := broadcastInDim S2x128x64 ![] bcast_S_S2x128x64 main_cst_8
  let main_v26 : IVec S2x128x64 1 := cmpf .olt main_v24 main_v25
  let main_c_9 : IVec S_ 1 := constantI S_ 1 1#1
  let main_v27 : IVec S_ 1 := (fun x v => Host.reduce IntOp.andi x v reducesTo_S2x128x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S50000x128 .f32) (main_arg1 : IVec S2x2x800000 32) (main_arg2 : IVec S2x800000 32) (main_arg3 : FVec F S2x128x128 .f32) (main_arg4 : FVec F S2x128x128 .f32) (main_arg5 : FVec F S2x128 .f32) (main_arg6 : FVec F S2x128x64 .f32) (main_arg7 : FVec F S2x128x64 .f32) (main_arg8 : FVec F S2x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg6 main_arg7 main_arg8 main_v13 main_v16
-- ==== Kernel.lean ====
abbrev S50000x128 : Shape := ⟨2, ![50000, 128]⟩
abbrev S2x2x800000 : Shape := ⟨3, ![2, 2, 800000]⟩
abbrev S2x800000 : Shape := ⟨2, ![2, 800000]⟩
abbrev S2x128x128 : Shape := ⟨3, ![2, 128, 128]⟩
abbrev S2x128 : Shape := ⟨2, ![2, 128]⟩
abbrev S2x128x64 : Shape := ⟨3, ![2, 128, 64]⟩
abbrev S2x64 : Shape := ⟨2, ![2, 64]⟩
abbrev S1x1x800000 : Shape := ⟨3, ![1, 1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x50000x128 : Shape := ⟨3, ![1, 50000, 128]⟩
abbrev S2x50000x128 : Shape := ⟨3, ![2, 50000, 128]⟩
abbrev S1000x128 : Shape := ⟨2, ![1000, 128]⟩
abbrev S2x1000x128 : Shape := ⟨3, ![2, 1000, 128]⟩
abbrev S1x128x128 : Shape := ⟨3, ![1, 128, 128]⟩
abbrev S128x128 : Shape := ⟨2, ![128, 128]⟩
abbrev S1x1000x128 : Shape := ⟨3, ![1, 1000, 128]⟩
abbrev S1x128 : Shape := ⟨2, ![1, 128]⟩
abbrev S128 : Shape := ⟨1, ![128]⟩
abbrev S50000x64 : Shape := ⟨2, ![50000, 64]⟩
abbrev S1000x64 : Shape := ⟨2, ![1000, 64]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S800000x64 : Shape := ⟨2, ![800000, 64]⟩
abbrev S1x800000 : Shape := ⟨2, ![1, 800000]⟩
abbrev S1600000x64 : Shape := ⟨2, ![1600000, 64]⟩
abbrev S1600000x1 : Shape := ⟨2, ![1600000, 1]⟩
abbrev S8000x64 : Shape := ⟨2, ![8000, 64]⟩
abbrev S8000x1 : Shape := ⟨2, ![8000, 1]⟩
abbrev S8000 : Shape := ⟨1, ![8000]⟩
abbrev S1600000 : Shape := ⟨1, ![1600000]⟩

abbrev nBuf : Space → Nat
  | .hbm => 183
  | .vmem => 24
  | .smem => 0
  | _ => 0

abbrev hbmTy0_0 (i : Nat) : BufTy := match i % 128 with
  | 0 => ⟨S50000x128, .f32⟩
  | 1 => ⟨S2x2x800000, .i32⟩
  | 2 => ⟨S2x800000, .i32⟩
  | 3 => ⟨S2x128x128, .f32⟩
  | 4 => ⟨S2x128x128, .f32⟩
  | 5 => ⟨S2x128, .f32⟩
  | 6 => ⟨S2x128x64, .f32⟩
  | 7 => ⟨S2x128x64, .f32⟩
  | 8 => ⟨S2x64, .f32⟩
  | 9 => ⟨S1x1x800000, .i32⟩
  | 10 => ⟨S800000, .i32⟩
  | 11 => ⟨S1x1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S1x1x800000, .i32⟩
  | 39 => ⟨S800000, .i32⟩
  | 40 => ⟨S1x1x800000, .i32⟩
  | 41 => ⟨S800000, .i32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S1x50000x128, .f32⟩
  | 68 => ⟨S1x50000x128, .f32⟩
  | 69 => ⟨S2x50000x128, .f32⟩
  | 70 => ⟨S50000x128, .f32⟩
  | 71 => ⟨S1x1x800000, .i32⟩
  | 72 => ⟨S800000, .i32⟩
  | 73 => ⟨S1x1x800000, .i32⟩
  | 74 => ⟨S800000, .i32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S_, .f32⟩
  | 89 => ⟨S800000, .f32⟩
  | 90 => ⟨S_, .f32⟩
  | 91 => ⟨S50000, .f32⟩
  | 92 => ⟨S800000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x128, .f32⟩
  | 99 => ⟨S50000x128, .f32⟩
  | 100 => ⟨S1x1x800000, .i32⟩
  | 101 => ⟨S800000, .i32⟩
  | 102 => ⟨S1x1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S_, .f32⟩
  | 118 => ⟨S800000, .f32⟩
  | 119 => ⟨S_, .f32⟩
  | 120 => ⟨S50000, .f32⟩
  | 121 => ⟨S800000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S1x50000x128, .f32⟩
  | 2 => ⟨S1x50000x128, .f32⟩
  | 3 => ⟨S2x50000x128, .f32⟩
  | 4 => ⟨S50000x64, .f32⟩
  | 5 => ⟨S1x1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S1x1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S1600000x64, .f32⟩
  | 50 => ⟨S1600000x64, .f32⟩
  | 51 => ⟨S1600000x1, .f32⟩
  | 52 => ⟨S1600000, .f32⟩
  | 53 => ⟨S800000, .f32⟩
  | 54 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S2x1000x128, .f32⟩
  | .local _ .vmem, ⟨3, _⟩ => ⟨S2x1000x128, .f32⟩
  | .local _ .vmem, ⟨4, _⟩ => ⟨S2x128x128, .f32⟩
  | .local _ .vmem, ⟨5, _⟩ => ⟨S2x128x128, .f32⟩
  | .local _ .vmem, ⟨6, _⟩ => ⟨S2x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S2x1000x128, .f32⟩
  | .local _ .vmem, ⟨12, _⟩ => ⟨S2x1000x128, .f32⟩
  | .local _ .vmem, ⟨13, _⟩ => ⟨S2x128x64, .f32⟩
  | .local _ .vmem, ⟨14, _⟩ => ⟨S2x128x64, .f32⟩
  | .local _ .vmem, ⟨15, _⟩ => ⟨S2x64, .f32⟩
  | .local _ .vmem, ⟨16, _⟩ => ⟨S1000x64, .f32⟩
  | .local _ .vmem, ⟨17, _⟩ => ⟨S1000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x1, .f32⟩
  | .local _ .vmem, ⟨23, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_19 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_22 : Ref sig .tc := ⟨.hbm, 135, rfl⟩
abbrev main_v102 : Ref sig .tc := ⟨.hbm, 136, rfl⟩
abbrev main_v103 : Ref sig .tc := ⟨.hbm, 137, rfl⟩
abbrev main_c_23 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_24 : Ref sig .tc := ⟨.hbm, 146, rfl⟩
abbrev main_v111 : Ref sig .tc := ⟨.hbm, 147, rfl⟩
abbrev main_v112 : Ref sig .tc := ⟨.hbm, 148, rfl⟩
abbrev main_c_25 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_26 : Ref sig .tc := ⟨.hbm, 157, rfl⟩
abbrev main_v120 : Ref sig .tc := ⟨.hbm, 158, rfl⟩
abbrev main_v121 : Ref sig .tc := ⟨.hbm, 159, rfl⟩
abbrev main_c_27 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_28 : Ref sig .tc := ⟨.hbm, 168, rfl⟩
abbrev main_v129 : Ref sig .tc := ⟨.hbm, 169, rfl⟩
abbrev main_v130 : Ref sig .tc := ⟨.hbm, 170, rfl⟩
abbrev main_c_29 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x2x800000_S1x1x800000_0_0_0 : S2x2x800000.Slices ![0, 0, 0] S1x1x800000
  shapeCasts_S1x1x800000_S800000 : S1x1x800000.ShapeCasts S800000
  slices_S2x2x800000_S1x1x800000_0_1_0 : S2x2x800000.Slices ![0, 1, 0] S1x1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x2x800000_S1x1x800000_1_0_0 : S2x2x800000.Slices ![1, 0, 0] S1x1x800000
  slices_S2x2x800000_S1x1x800000_1_1_0 : S2x2x800000.Slices ![1, 1, 0] S1x1x800000
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x1000x128_S1x1000x128_0_0_0 : ∀ a, (![0, 0, 0] : Fin 3 → Nat) a + S1x1000x128.size a ≤ S2x1000x128.size a
  h_S1x1000x128 : 0 < S1x1000x128.numel
  shapeCasts_S1x1000x128_S1000x128 : S1x1000x128.ShapeCasts S1000x128
  inb_S2x128_S1x128_0_0 : ∀ a, (![0, 0] : Fin 2 → Nat) a + S1x128.size a ≤ S2x128.size a
  h_S1x128 : 0 < S1x128.numel
  shapeCasts_S1x128_S128 : S1x128.ShapeCasts S128
  shapeCasts_S128_S1x128 : S128.ShapeCasts S1x128
  broadcasts_S1x128_S1000x128 : S1x128.Broadcasts S1000x128
  inb_S2x128x128_S1x128x128_1_0_0 : ∀ a, (![1, 0, 0] : Fin 3 → Nat) a + S1x128x128.size a ≤ S2x128x128.size a
  inb_S2x1000x128_S1x1000x128_1_0_0 : ∀ a, (![1, 0, 0] : Fin 3 → Nat) a + S1x1000x128.size a ≤ S2x1000x128.size a
  inb_S2x128_S1x128_1_0 : ∀ a, (![1, 0] : Fin 2 → Nat) a + S1x128.size a ≤ S2x128.size a
  shapeCasts_S1000x128_S1000x128 : S1000x128.ShapeCasts S1000x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  broadcasts_S1x64_S1000x64 : S1x64.Broadcasts S1000x64
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  inb_S1000x64_S1000x64_0_0 : ∀ a, (![0, 0] : Fin 2 → Nat) a + S1000x64.size a ≤ S1000x64.size a
  h_S1000x64 : 0 < S1000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000x64_S800000x64_S1600000x64_d0 : Shape.Concatenates [S800000x64, S800000x64] S1600000x64 0
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  slices_S1600000_S800000_0 : S1600000.Slices ![0] S800000
  slices_S1600000_S800000_800000 : S1600000.Slices ![800000] S800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1000x128.size a ≤ S2x50000x128.size a
  hwx0_1 : ∀ i : grid0.Coords, EltTy.bits .f32 = 32 ∨ (Rect.block (s := S2x50000x128) S2x1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x128.size a ≤ S2x128x128.size a
  hwx0_2 : ∀ i : grid0.Coords, EltTy.bits .f32 = 32 ∨ (Rect.block (s := S2x128x128) S2x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x128.size a ≤ S2x128x128.size a
  hwx0_3 : ∀ i : grid0.Coords, EltTy.bits .f32 = 32 ∨ (Rect.block (s := S2x128x128) S2x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1000x128.size a ≤ S2x50000x128.size a
  hwx1_1 : ∀ i : grid1.Coords, EltTy.bits .f32 = 32 ∨ (Rect.block (s := S2x50000x128) S2x1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128x64.size a ≤ S2x128x64.size a
  hwx1_2 : ∀ i : grid1.Coords, EltTy.bits .f32 = 32 ∨ (Rect.block (s := S2x128x64) S2x128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128x64.size a ≤ S2x128x64.size a
  hwx1_3 : ∀ i : grid1.Coords, EltTy.bits .f32 = 32 ∨ (Rect.block (s := S2x128x64) S2x128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x64.size a ≤ S2x64.size a
  hwx1_4 : ∀ i : grid1.Coords, EltTy.bits .f32 = 32 ∨ (Rect.block (s := S2x64) S2x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S50000x64.size a
  hwx1_5 : ∀ i : grid1.Coords, EltTy.bits .f32 = 32 ∨ (Rect.block (s := S50000x64) S1000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1600000x1.size a
  hwx2_2 : ∀ i : grid2.Coords, EltTy.bits .f32 = 32 ∨ (Rect.block (s := S1600000x1) S8000x1.size (cc2_transform_2 i) (hinb2_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S2x1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2x128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S2x128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S2x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v99) S1000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v136) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v137) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v138) S8000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x2x800000 : Shape := ⟨3, ![2, 2, 800000]⟩
abbrev S2x800000 : Shape := ⟨2, ![2, 800000]⟩
abbrev S2x128x128 : Shape := ⟨3, ![2, 128, 128]⟩
abbrev S2x128 : Shape := ⟨2, ![2, 128]⟩
abbrev S2x128x64 : Shape := ⟨3, ![2, 128, 64]⟩
abbrev S2x64 : Shape := ⟨2, ![2, 64]⟩
abbrev S_ : Shape := ⟨0, ![]⟩
abbrev S1x1x800000 : Shape := ⟨3, ![1, 1, 800000]⟩
abbrev S800000 : Shape := ⟨1, ![800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x64 : Shape := ⟨2, ![50000, 64]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S800000x64 : Shape := ⟨2, ![800000, 64]⟩
abbrev S1x800000 : Shape := ⟨2, ![1, 800000]⟩

abbrev nBuf : Space → Nat
  | .hbm => 234
  | .vmem => 0
  | .smem => 0
  | _ => 0

abbrev hbmTy0_0 (i : Nat) : BufTy := match i % 128 with
  | 0 => ⟨S50000x128, .f32⟩
  | 1 => ⟨S2x2x800000, .i32⟩
  | 2 => ⟨S2x800000, .i32⟩
  | 3 => ⟨S2x128x128, .f32⟩
  | 4 => ⟨S2x128x128, .f32⟩
  | 5 => ⟨S2x128, .f32⟩
  | 6 => ⟨S2x128x64, .f32⟩
  | 7 => ⟨S2x128x64, .f32⟩
  | 8 => ⟨S2x64, .f32⟩
  | 9 => ⟨S_, .f32⟩
  | 10 => ⟨S50000x128, .f32⟩
  | 11 => ⟨S1x1x800000, .i32⟩
  | 12 => ⟨S800000, .i32⟩
  | 13 => ⟨S1x1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x1x800000, .i32⟩
  | 54 => ⟨S800000, .i32⟩
  | 55 => ⟨S1x1x800000, .i32⟩
  | 56 => ⟨S800000, .i32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .f32⟩
  | 99 => ⟨S50000x64, .f32⟩
  | 100 => ⟨S1x1x800000, .i32⟩
  | 101 => ⟨S800000, .i32⟩
  | 102 => ⟨S1x1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S_, .f32⟩
  | 118 => ⟨S800000, .f32⟩
  | 119 => ⟨S_, .f32⟩
  | 120 => ⟨S50000, .f32⟩
  | 121 => ⟨S800000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x64, .f32⟩
  | 2 => ⟨S128x64, .f32⟩
  | 3 => ⟨S50000x64, .f32⟩
  | 4 => ⟨S50000x64, .f32⟩
  | 5 => ⟨S1x128x64, .f32⟩
  | 6 => ⟨S128x64, .f32⟩
  | 7 => ⟨S50000x64, .f32⟩
  | 8 => ⟨S50000x64, .f32⟩
  | 9 => ⟨S1x64, .f32⟩
  | 10 => ⟨S64, .f32⟩
  | 11 => ⟨S1x64, .f32⟩
  | 12 => ⟨S50000x64, .f32⟩
  | 13 => ⟨S50000x64, .f32⟩
  | 14 => ⟨S1x1x800000, .i32⟩
  | 15 => ⟨S800000, .i32⟩
  | 16 => ⟨S1x1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S1x128x64, .f32⟩
  | 44 => ⟨S128x64, .f32⟩
  | 45 => ⟨S50000x64, .f32⟩
  | 46 => ⟨S50000x64, .f32⟩
  | 47 => ⟨S1x128x64, .f32⟩
  | 48 => ⟨S128x64, .f32⟩
  | 49 => ⟨S50000x64, .f32⟩
  | 50 => ⟨S50000x64, .f32⟩
  | 51 => ⟨S1x64, .f32⟩
  | 52 => ⟨S64, .f32⟩
  | 53 => ⟨S1x64, .f32⟩
  | 54 => ⟨S50000x64, .f32⟩
  | 55 => ⟨S50000x64, .f32⟩
  | 56 => ⟨S1x1x800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S1x1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x64, .f32⟩
  | 79 => ⟨S_, .f32⟩
  | 80 => ⟨S800000, .f32⟩
  | 81 => ⟨S1x800000, .i32⟩
  | 82 => ⟨S800000, .i32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x64, .f32⟩
  | 104 => ⟨S_, .f32⟩
  | 105 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call0_cst : Ref sig .tc := ⟨.hbm, 95, rfl⟩
abbrev main_call0_v0 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_c_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_17 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_c_18 : Ref sig .tc := ⟨.hbm, 146, rfl⟩
abbrev main_v115 : Ref sig .tc := ⟨.hbm, 147, rfl⟩
abbrev main_v116 : Ref sig .tc := ⟨.hbm, 148, rfl⟩
abbrev main_c_19 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_20 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_21 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_23 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_c_24 : Ref sig .tc := ⟨.hbm, 186, rfl⟩
abbrev main_v149 : Ref sig .tc := ⟨.hbm, 187, rfl⟩
abbrev main_v150 : Ref sig .tc := ⟨.hbm, 188, rfl⟩
abbrev main_c_25 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_c_26 : Ref sig .tc := ⟨.hbm, 197, rfl⟩
abbrev main_v158 : Ref sig .tc := ⟨.hbm, 198, rfl⟩
abbrev main_v159 : Ref sig .tc := ⟨.hbm, 199, rfl⟩
abbrev main_c_27 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_28 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_c_29 : Ref sig .tc := ⟨.hbm, 211, rfl⟩
abbrev main_v169 : Ref sig .tc := ⟨.hbm, 212, rfl⟩
abbrev main_v170 : Ref sig .tc := ⟨.hbm, 213, rfl⟩
abbrev main_c_30 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_c_31 : Ref sig .tc := ⟨.hbm, 222, rfl⟩
abbrev main_v178 : Ref sig .tc := ⟨.hbm, 223, rfl⟩
abbrev main_v179 : Ref sig .tc := ⟨.hbm, 224, rfl⟩
abbrev main_c_32 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_33 : Ref sig .tc := ⟨.hbm, 232, rfl⟩
abbrev main_v186 : Ref sig .tc := ⟨.hbm, 233, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S2x2x800000_S1x1x800000_0_0_0 : S2x2x800000.Slices ![0, 0, 0] S1x1x800000
  shapeCasts_S1x1x800000_S800000 : S1x1x800000.ShapeCasts S800000
  slices_S2x2x800000_S1x1x800000_0_1_0 : S2x2x800000.Slices ![0, 1, 0] S1x1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x2x800000_S1x1x800000_1_0_0 : S2x2x800000.Slices ![1, 0, 0] S1x1x800000
  slices_S2x2x800000_S1x1x800000_1_1_0 : S2x2x800000.Slices ![1, 1, 0] S1x1x800000
  slices_S2x128x128_S1x128x128_1_0_0 : S2x128x128.Slices ![1, 0, 0] S1x128x128
  slices_S2x128_S1x128_1_0 : S2x128.Slices ![1, 0] S1x128
  bcast_S_S50000x64 : S_.BroadcastsInDim S50000x64 (![] : Fin 0 → Fin S50000x64.rank)
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x128x64_S1x128x64_1_0_0 : S2x128x64.Slices ![1, 0, 0] S1x128x64
  slices_S2x64_S1x64_1_0 : S2x64.Slices ![1, 0] S1x64
  reducesTo_S800000x64_S800000_d1 : S800000x64.ReducesTo [1] S800000
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.KRun.lean ====
/-
  The idealized kernel program's run with its two results named.

  @main is seven segments: four stretches of host operations and, between them, the three grid regions. The frame
  module folds the buffer contents through them (`W0` … `W7`: a stretch applies its operations, a region leaves its
  arrays at what its write-backs made of them) and shows that every execution ends with every unscoped buffer at the
  last contents `W7`. Here that run is read at the two result buffers as well as at the nine arguments.
-/
import proofs.«166113_j68092411510980_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_named : θ_run defs (onTc (τ := τ) (main (F := F))) ⟨m, fun _ => 0, ρ⟩ (fun r => ∀ c : Dev nD,
      r.2.mem ((c.tc : Thread nD τ).loc main_v140) = W7 m ρ c (Proc.devRef .tc main_v140)
      ∧ r.2.mem ((c.tc : Thread nD τ).loc main_v141) = W7 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v140 (by decide)),
       h c _ (mem_uc main_v141 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.Sage.KRun

end
-- ==== Proof.HostFns.lean ====
/-
  The host-side steps both programs apply around the dense layers, each as ONE function of its operands, so that a
  proof can carry them unopened: they are the same operations on both sides.

  `edge r s` is row `s` (0: sources, 1: destinations) of relation `r` of the edge list as a vector of node numbers,
  `negRow s` a row of the negative pairs. `startCol` turns such a vector into a column of start indices, a negative
  number counted from the end (n ↦ n + 50000). `meanOf H src dst` is the mean aggregation: row `v` of the result is the
  sum of the rows `H[src e]` over the edges `e` with `dst e = v`, divided by the larger of that number of edges and 1.
  `stack2` lays two [50000,128] arrays out as one [2,50000,128] array; `takeRows` gathers rows of a [50000,64] table;
  `cat2` puts two [800000,64] arrays one after the other along the rows; `flat`, `firstHalf`, `secondHalf` read a
  [1600000,1] column as a vector and cut it in two.
-/
import proofs.«166113_j68092411510980_1_alg».proof.Proof.Gen.KernelIdeal
import Idealize.ShloMosaic.PureOps.Ideal

noncomputable section

namespace Cert.Sage.HF

open Idealize.ShloMosaic Cert.KernelIdeal Cert.KernelIdeal.Facts₀ Cert.KernelIdeal.Facts

abbrev Arr (S : Shape) : Type := (⟨S, .f32⟩ : BufTy).Contents (Elt Ideal)
abbrev IArr (S : Shape) : Type := (⟨S, .i32⟩ : BufTy).Contents (Elt Ideal)

def edge00 (E : IArr S2x2x800000) : IArr S800000 :=
  shapeCast _ (extractStridedSlice S1x1x800000 ![0, 0, 0] E slices_S2x2x800000_S1x1x800000_0_0_0) shapeCasts_S1x1x800000_S800000
def edge01 (E : IArr S2x2x800000) : IArr S800000 :=
  shapeCast _ (extractStridedSlice S1x1x800000 ![0, 1, 0] E slices_S2x2x800000_S1x1x800000_0_1_0) shapeCasts_S1x1x800000_S800000
def edge10 (E : IArr S2x2x800000) : IArr S800000 :=
  shapeCast _ (extractStridedSlice S1x1x800000 ![1, 0, 0] E slices_S2x2x800000_S1x1x800000_1_0_0) shapeCasts_S1x1x800000_S800000
def edge11 (E : IArr S2x2x800000) : IArr S800000 :=
  shapeCast _ (extractStridedSlice S1x1x800000 ![1, 1, 0] E slices_S2x2x800000_S1x1x800000_1_1_0) shapeCasts_S1x1x800000_S800000
def negRow0 (NE : IArr S2x800000) : IArr S800000 :=
  shapeCast _ (extractStridedSlice S1x800000 ![0, 0] NE slices_S2x800000_S1x800000_0_0) shapeCasts_S1x800000_S800000
def negRow1 (NE : IArr S2x800000) : IArr S800000 :=
  shapeCast _ (extractStridedSlice S1x800000 ![1, 0] NE slices_S2x800000_S1x800000_1_0) shapeCasts_S1x800000_S800000

/-- A vector of node numbers as a column of start indices; a negative number is counted from the end. -/
def startCol (s : IArr S800000) : IArr S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The mean aggregation of the rows of `H` along the edges `src → dst`. -/
def meanOf (H : Arr S50000x128) (src dst : IArr S800000) : Arr S50000x128 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 H (startCol src)))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- Two [50000,128] arrays as the two slabs of one [2,50000,128] array. -/
def stack2 (M0 M1 : Arr S50000x128) : Arr S2x50000x128 :=
  concatenate S2x50000x128 0
    [⟨S1x50000x128, broadcastInDim S1x50000x128 ![1, 2] bcast_S50000x128_S1x50000x128_1_2 M0⟩,
     ⟨S1x50000x128, broadcastInDim S1x50000x128 ![1, 2] bcast_S50000x128_S1x50000x128_1_2 M1⟩]
    concatenates_S1x50000x128_S1x50000x128_S2x50000x128_d0

/-- The rows of a [50000,64] table at a vector of node numbers. -/
def takeRows (H : Arr S50000x64) (s : IArr S800000) : Arr S800000x64 :=
  Host.gather gather_S50000x64_S800000x1_S800000x64_1_0_n_n_0_1_164 H (startCol s)

/-- Two [800000,64] arrays one after the other along the rows. -/
def cat2 (A B : Arr S800000x64) : Arr S1600000x64 :=
  concatenate S1600000x64 0 [⟨S800000x64, A⟩, ⟨S800000x64, B⟩] concatenates_S800000x64_S800000x64_S1600000x64_d0

/-- A [1600000,1] column as a vector. -/
def flat (S : Arr S1600000x1) : Arr S1600000 := shapeCast _ S shapeCasts_S1600000x1_S1600000
def firstHalf (v : Arr S1600000) : Arr S800000 := extractStridedSlice S800000 ![0] v slices_S1600000_S800000_0
def secondHalf (v : Arr S1600000) : Arr S800000 := extractStridedSlice S800000 ![800000] v slices_S1600000_S800000_800000

end Cert.Sage.HF

end
-- ==== Proof.LibAfterAppend.lean ====
/-
  Host operations run one list after the other: the buffer contents after `l₁ ++ l₂` are the contents after `l₂` from
  the contents after `l₁` (`after_append`), so a long stretch of host operations can be read in pieces cut at any
  position (`after_take_drop`) — each piece's result stated once over an arbitrary valuation, the pieces composed by
  rewriting. For any topology, signature and value type.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lists of operations run in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of operations cut at position `n`. -/
theorem after_take_drop (n : Nat) (l : List (HloOp τ sig Val)) (V : Valuation τ sig Val) :
    after l V = after (l.drop n) (after (l.take n) V) := by
  rw [← after_append, List.take_append_drop]

end Cert.LibAfterAppend

end
-- ==== Proof.KHost.lean ====
/-
  What each stretch of the kernel program's host operations leaves in the buffers that later steps read, from ANY
  contents `X` of the buffers before it — each as one of the named host-side functions (mean aggregation, stacking,
  row gathers, concatenation, the final cut in two) of the contents it reads; and the buffers a stretch does not write
  keep their contents.
-/
import proofs.«166113_j68092411510980_1_alg».proof.Proof.Gen.KernelIdeal.Launch
import proofs.«166113_j68092411510980_1_alg».proof.Proof.HostFns
import proofs.«166113_j68092411510980_1_alg».proof.Proof.LibAfterAppend
import Idealize.ShloMosaic.Lib.StableHlo.Run

set_option maxRecDepth 16384

noncomputable section

namespace Cert.Sage.KHost

open Cert.KernelIdeal Cert.KernelIdeal.Gen Cert.Sage Cert.LibAfterAppend
open Idealize.ShloMosaic Idealize.ShloMosaic.TcCoe Idealize.SL.Sem Idealize.ShloMosaic.StableHlo

variable (X : Valuation τ sig (Elt Ideal))

/-! ## Stretch 0: before the first layer -/

/-- Relation 0's aggregation chain, relation 1's, and the stacking. -/
def h0A : List (HloOp τ sig (Elt Ideal)) := (hostOps0 (F := Ideal)).take 29
def h0B : List (HloOp τ sig (Elt Ideal)) := ((hostOps0 (F := Ideal)).drop 29).take 29
def h0C : List (HloOp τ sig (Elt Ideal)) := ((hostOps0 (F := Ideal)).drop 29).drop 29
theorem h0_split : hostOps0 (F := Ideal) = h0A ++ (h0B ++ h0C) := by
  unfold h0A h0B h0C
  rw [List.take_append_drop, List.take_append_drop]

theorem h0A_mean : after h0A X (Proc.devRef .tc main_v22) =
    HF.meanOf (X (Proc.devRef .tc main_arg0)) (HF.edge00 (X (Proc.devRef .tc main_arg1))) (HF.edge01 (X (Proc.devRef .tc main_arg1))) := by
  unfold h0A
  simp only [hostOps0, hostOps1, hostOps2, List.take_succ_cons, List.take_zero, List.drop_succ_cons, List.drop_zero]
  after_results_simp
  rfl
theorem h0A_keep_main_arg0 : after h0A X (Proc.devRef .tc main_arg0) = X (Proc.devRef .tc main_arg0) := by
  unfold h0A
  simp only [hostOps0, hostOps1, hostOps2, List.take_succ_cons, List.take_zero, List.drop_succ_cons, List.drop_zero]
  after_results_simp
theorem h0A_keep_main_arg1 : after h0A X (Proc.devRef .tc main_arg1) = X (Proc.devRef .tc main_arg1) := by
  unfold h0A
  simp only [hostOps0, hostOps1, hostOps2, List.take_succ_cons, List.take_zero, List.drop_succ_cons, List.drop_zero]
  after_results_simp
theorem h0B_mean : after h0B X (Proc.devRef .tc main_v45) =
    HF.meanOf (X (Proc.devRef .tc main_arg0)) (HF.edge10 (X (Proc.devRef .tc main_arg1))) (HF.edge11 (X (Proc.devRef .tc main_arg1))) := by
  unfold h0B
  simp only [hostOps0, hostOps1, hostOps2, List.take_succ_cons, List.take_zero, List.drop_succ_cons, List.drop_zero]
  after_results_simp
  rfl
theorem h0B_keep_main_v22 : after h0B X (Proc.devRef .tc main_v22) = X (Proc.devRef .tc main_v22) := by
  unfold h0B
  simp only [hostOps0, hostOps1, hostOps2, List.take_succ_cons, List.take_zero, List.drop_succ_cons, List.drop_zero]
  after_results_simp
theorem h0C_stack : after h0C X (Proc.devRef .tc main_v48) = HF.stack2 (X (Proc.devRef .tc main_v22)) (X (Proc.devRef .tc main_v45)) := by
  unfold h0C
  simp only [hostOps0, hostOps1, hostOps2, List.take_succ_cons, List.take_zero, List.drop_succ_cons, List.drop_zero]
  after_results_simp
  rfl

/-- The stretch leaves the two relations' mean aggregations of `main_arg0`'s contents, stacked. -/
theorem host0_v48 : after (hostOps0 (F := Ideal)) X (Proc.devRef .tc main_v48) =
    HF.stack2
      (HF.meanOf (X (Proc.devRef .tc main_arg0)) (HF.edge00 (X (Proc.devRef .tc main_arg1))) (HF.edge01 (X (Proc.devRef .tc main_arg1))))
      (HF.meanOf (X (Proc.devRef .tc main_arg0)) (HF.edge10 (X (Proc.devRef .tc main_arg1))) (HF.edge11 (X (Proc.devRef .tc main_arg1)))) := by
  rw [h0_split, after_append, after_append, h0C_stack, h0B_keep_main_v22, h0A_mean, h0B_mean, h0A_keep_main_arg0, h0A_keep_main_arg1]

theorem host0_keep_main_arg0 : after (hostOps0 (F := Ideal)) X (Proc.devRef .tc main_arg0) = X (Proc.devRef .tc main_arg0) := by
  after_results_simp
theorem host0_keep_main_arg1 : after (hostOps0 (F := Ideal)) X (Proc.devRef .tc main_arg1) = X (Proc.devRef .tc main_arg1) := by
  after_results_simp
theorem host0_keep_main_arg2 : after (hostOps0 (F := Ideal)) X (Proc.devRef .tc main_arg2) = X (Proc.devRef .tc main_arg2) := by
  after_results_simp
theorem host0_keep_main_arg3 : after (hostOps0 (F := Ideal)) X (Proc.devRef .tc main_arg3) = X (Proc.devRef .tc main_arg3) := by
  after_results_simp
theorem host0_keep_main_arg4 : after (hostOps0 (F := Ideal)) X (Proc.devRef .tc main_arg4) = X (Proc.devRef .tc main_arg4) := by
  after_results_simp
theorem host0_keep_main_arg5 : after (hostOps0 (F := Ideal)) X (Proc.devRef .tc main_arg5) = X (Proc.devRef .tc main_arg5) := by
  after_results_simp
theorem host0_keep_main_arg6 : after (hostOps0 (F := Ideal)) X (Proc.devRef .tc main_arg6) = X (Proc.devRef .tc main_arg6) := by
  after_results_simp
theorem host0_keep_main_arg7 : after (hostOps0 (F := Ideal)) X (Proc.devRef .tc main_arg7) = X (Proc.devRef .tc main_arg7) := by
  after_results_simp
theorem host0_keep_main_arg8 : after (hostOps0 (F := Ideal)) X (Proc.devRef .tc main_arg8) = X (Proc.devRef .tc main_arg8) := by
  after_results_simp

/-! ## Stretch 1: between the layers -/

/-- Relation 0's aggregation chain, relation 1's, and the stacking. -/
def h1A : List (HloOp τ sig (Elt Ideal)) := (hostOps1 (F := Ideal)).take 29
def h1B : List (HloOp τ sig (Elt Ideal)) := ((hostOps1 (F := Ideal)).drop 29).take 29
def h1C : List (HloOp τ sig (Elt Ideal)) := ((hostOps1 (F := Ideal)).drop 29).drop 29
theorem h1_split : hostOps1 (F := Ideal) = h1A ++ (h1B ++ h1C) := by
  unfold h1A h1B h1C
  rw [List.take_append_drop, List.take_append_drop]

theorem h1A_mean : after h1A X (Proc.devRef .tc main_v72) =
    HF.meanOf (X (Proc.devRef .tc main_v49)) (HF.edge00 (X (Proc.devRef .tc main_arg1))) (HF.edge01 (X (Proc.devRef .tc main_arg1))) := by
  unfold h1A
  simp only [hostOps0, hostOps1, hostOps2, List.take_succ_cons, List.take_zero, List.drop_succ_cons, List.drop_zero]
  after_results_simp
  rfl
theorem h1A_keep_main_v49 : after h1A X (Proc.devRef .tc main_v49) = X (Proc.devRef .tc main_v49) := by
  unfold h1A
  simp only [hostOps0, hostOps1, hostOps2, List.take_succ_cons, List.take_zero, List.drop_succ_cons, List.drop_zero]
  after_results_simp
theorem h1A_keep_main_arg1 : after h1A X (Proc.devRef .tc main_arg1) = X (Proc.devRef .tc main_arg1) := by
  unfold h1A
  simp only [hostOps0, hostOps1, hostOps2, List.take_succ_cons, List.take_zero, List.drop_succ_cons, List.drop_zero]
  after_results_simp
theorem h1B_mean : after h1B X (Proc.devRef .tc main_v95) =
    HF.meanOf (X (Proc.devRef .tc main_v49)) (HF.edge10 (X (Proc.devRef .tc main_arg1))) (HF.edge11 (X (Proc.devRef .tc main_arg1))) := by
  unfold h1B
  simp only [hostOps0, hostOps1, hostOps2, List.take_succ_cons, List.take_zero, List.drop_succ_cons, List.drop_zero]
  after_results_simp
  rfl
theorem h1B_keep_main_v72 : after h1B X (Proc.devRef .tc main_v72) = X (Proc.devRef .tc main_v72) := by
  unfold h1B
  simp only [hostOps0, hostOps1, hostOps2, List.take_succ_cons, List.take_zero, List.drop_succ_cons, List.drop_zero]
  after_results_simp
theorem h1C_stack : after h1C X (Proc.devRef .tc main_v98) = HF.stack2 (X (Proc.devRef .tc main_v72)) (X (Proc.devRef .tc main_v95)) := by
  unfold h1C
  simp only [hostOps0, hostOps1, hostOps2, List.take_succ_cons, List.take_zero, List.drop_succ_cons, List.drop_zero]
  after_results_simp
  rfl

/-- The stretch leaves the two relations' mean aggregations of `main_v49`'s contents, stacked. -/
theorem host1_v98 : after (hostOps1 (F := Ideal)) X (Proc.devRef .tc main_v98) =
    HF.stack2
      (HF.meanOf (X (Proc.devRef .tc main_v49)) (HF.edge00 (X (Proc.devRef .tc main_arg1))) (HF.edge01 (X (Proc.devRef .tc main_arg1))))
      (HF.meanOf (X (Proc.devRef .tc main_v49)) (HF.edge10 (X (Proc.devRef .tc main_arg1))) (HF.edge11 (X (Proc.devRef .tc main_arg1)))) := by
  rw [h1_split, after_append, after_append, h1C_stack, h1B_keep_main_v72, h1A_mean, h1B_mean, h1A_keep_main_v49, h1A_keep_main_arg1]

theorem host1_keep_main_v49 : after (hostOps1 (F := Ideal)) X (Proc.devRef .tc main_v49) = X (Proc.devRef .tc main_v49) := by
  after_results_simp
theorem host1_keep_main_arg1 : after (hostOps1 (F := Ideal)) X (Proc.devRef .tc main_arg1) = X (Proc.devRef .tc main_arg1) := by
  after_results_simp
theorem host1_keep_main_arg2 : after (hostOps1 (F := Ideal)) X (Proc.devRef .tc main_arg2) = X (Proc.devRef .tc main_arg2) := by
  after_results_simp
theorem host1_keep_main_arg6 : after (hostOps1 (F := Ideal)) X (Proc.devRef .tc main_arg6) = X (Proc.devRef .tc main_arg6) := by
  after_results_simp
theorem host1_keep_main_arg7 : after (hostOps1 (F := Ideal)) X (Proc.devRef .tc main_arg7) = X (Proc.devRef .tc main_arg7) := by
  after_results_simp
theorem host1_keep_main_arg8 : after (hostOps1 (F := Ideal)) X (Proc.devRef .tc main_arg8) = X (Proc.devRef .tc main_arg8) := by
  after_results_simp

/-! ## Stretch 2: before the scoring -/

/-- The positive pairs' two gathers, then the negative pairs' two gathers and the two concatenations. -/
def h2P : List (HloOp τ sig (Elt Ideal)) := (hostOps2 (F := Ideal)).take 22
def h2Q : List (HloOp τ sig (Elt Ideal)) := (hostOps2 (F := Ideal)).drop 22
theorem h2_split : hostOps2 (F := Ideal) = h2P ++ h2Q := by
  unfold h2P h2Q
  rw [List.take_append_drop]

theorem h2P_src : after h2P X (Proc.devRef .tc main_v108) = HF.takeRows (X (Proc.devRef .tc main_v99)) (HF.edge00 (X (Proc.devRef .tc main_arg1))) := by
  unfold h2P
  simp only [hostOps0, hostOps1, hostOps2, List.take_succ_cons, List.take_zero, List.drop_succ_cons, List.drop_zero]
  after_results_simp
  rfl
theorem h2P_dst : after h2P X (Proc.devRef .tc main_v117) = HF.takeRows (X (Proc.devRef .tc main_v99)) (HF.edge01 (X (Proc.devRef .tc main_arg1))) := by
  unfold h2P
  simp only [hostOps0, hostOps1, hostOps2, List.take_succ_cons, List.take_zero, List.drop_succ_cons, List.drop_zero]
  after_results_simp
  rfl
theorem h2P_keep_main_v99 : after h2P X (Proc.devRef .tc main_v99) = X (Proc.devRef .tc main_v99) := by
  unfold h2P
  simp only [hostOps0, hostOps1, hostOps2, List.take_succ_cons, List.take_zero, List.drop_succ_cons, List.drop_zero]
  after_results_simp
theorem h2P_keep_main_arg2 : after h2P X (Proc.devRef .tc main_arg2) = X (Proc.devRef .tc main_arg2) := by
  unfold h2P
  simp only [hostOps0, hostOps1, hostOps2, List.take_succ_cons, List.take_zero, List.drop_succ_cons, List.drop_zero]
  after_results_simp
theorem h2Q_src : after h2Q X (Proc.devRef .tc main_v136) =
    HF.cat2 (X (Proc.devRef .tc main_v108)) (HF.takeRows (X (Proc.devRef .tc main_v99)) (HF.negRow0 (X (Proc.devRef .tc main_arg2)))) := by
  unfold h2Q
  simp only [hostOps0, hostOps1, hostOps2, List.take_succ_cons, List.take_zero, List.drop_succ_cons, List.drop_zero]
  after_results_simp
  rfl
theorem h2Q_dst : after h2Q X (Proc.devRef .tc main_v137) =
    HF.cat2 (X (Proc.devRef .tc main_v117)) (HF.takeRows (X (Proc.devRef .tc main_v99)) (HF.negRow1 (X (Proc.devRef .tc main_arg2)))) := by
  unfold h2Q
  simp only [hostOps0, hostOps1, hostOps2, List.take_succ_cons, List.take_zero, List.drop_succ_cons, List.drop_zero]
  after_results_simp
  rfl

/-- The sources' rows of the second layer's output, positive pairs then negative pairs … -/
theorem host2_v136 : after (hostOps2 (F := Ideal)) X (Proc.devRef .tc main_v136) =
    HF.cat2 (HF.takeRows (X (Proc.devRef .tc main_v99)) (HF.edge00 (X (Proc.devRef .tc main_arg1))))
      (HF.takeRows (X (Proc.devRef .tc main_v99)) (HF.negRow0 (X (Proc.devRef .tc main_arg2)))) := by
  rw [h2_split, after_append, h2Q_src, h2P_src, h2P_keep_main_v99, h2P_keep_main_arg2]
/-- … and the destinations' rows. -/
theorem host2_v137 : after (hostOps2 (F := Ideal)) X (Proc.devRef .tc main_v137) =
    HF.cat2 (HF.takeRows (X (Proc.devRef .tc main_v99)) (HF.edge01 (X (Proc.devRef .tc main_arg1))))
      (HF.takeRows (X (Proc.devRef .tc main_v99)) (HF.negRow1 (X (Proc.devRef .tc main_arg2)))) := by
  rw [h2_split, after_append, h2Q_dst, h2P_dst, h2P_keep_main_v99, h2P_keep_main_arg2]

/-! ## Stretch 3: after the scoring, the column of scores read as a vector and cut in two -/

theorem host3_v140 : after (hostOps3 (F := Ideal)) X (Proc.devRef .tc main_v140) =
    HF.firstHalf (HF.flat (X (Proc.devRef .tc main_v138))) := by
  after_results_simp
  rfl
theorem host3_v141 : after (hostOps3 (F := Ideal)) X (Proc.devRef .tc main_v141) =
    HF.secondHalf (HF.flat (X (Proc.devRef .tc main_v138))) := by
  after_results_simp
  rfl

end Cert.Sage.KHost

end
-- ==== Proof.Layout.lean ====
/-
  The host-side layout steps read at an index by coordinates: a slab of two stacked [50000,128] arrays is the array
  it came from; a row of two [800000,64] arrays laid one after the other is a row of the first when its number is
  below 800000 and row (number − 800000) of the second otherwise; the [1600000,1] column read as a vector and cut in
  two halves is, at position e, the column's entry e, respectively e + 800000.
-/
import proofs.«166113_j68092411510980_1_alg».proof.Proof.HostFns
import Idealize.ShloMosaic.Lib.Pipeline.Value
import Idealize.ShloMosaic.Lib.ValueIdx

noncomputable section

namespace Cert.Sage.Lay

open Cert.KernelIdeal Cert.KernelIdeal.Facts₀ Cert.KernelIdeal.Facts Cert.Sage
open Idealize.ShloMosaic Idealize.ShloMosaic.ValueIdx

/-- Slab 0 of the stack is the first array. -/
theorem stack2_slab0 (M0 M1 : HF.Arr S50000x128) (a : Fin 50000) (k : Fin 128) :
    HF.stack2 M0 M1 (ix3 (0 : Fin 2) a k) = M0 (ix2 a k) := by
  unfold HF.stack2
  refine (concatenate_pair_apply_left (t := S2x50000x128) (s₁ := S1x50000x128) (s₂ := S1x50000x128) (0 : Fin 3) _ _ _ (ix3 (0 : Fin 2) a k) rfl (ix3 (0 : Fin 1) a k) ?_).trans ?_
  · intro b
    match b with
    | ⟨0, _⟩ => rfl
    | ⟨1, _⟩ => rfl
    | ⟨2, _⟩ => rfl
  · refine broadcastInDim_apply _ _ _ (ix3 (0 : Fin 1) a k) (ix2 a k) ?_
    intro b
    match b with
    | ⟨0, _⟩ => show a.val = if (50000 : Nat) = 1 then 0 else a.val; rw [if_neg (by decide)]
    | ⟨1, _⟩ => show k.val = if (128 : Nat) = 1 then 0 else k.val; rw [if_neg (by decide)]

/-- Slab 1 of the stack is the second array. -/
theorem stack2_slab1 (M0 M1 : HF.Arr S50000x128) (a : Fin 50000) (k : Fin 128) :
    HF.stack2 M0 M1 (ix3 (1 : Fin 2) a k) = M1 (ix2 a k) := by
  unfold HF.stack2
  refine (concatenate_pair_apply_right (t := S2x50000x128) (s₁ := S1x50000x128) (s₂ := S1x50000x128) (0 : Fin 3) _ _ _ (ix3 (1 : Fin 2) a k) rfl rfl (ix3 (0 : Fin 1) a k) ?_ ?_).trans ?_
  · intro b hb
    match b with
    | ⟨0, _⟩ => exact absurd rfl hb
    | ⟨1, _⟩ => rfl
    | ⟨2, _⟩ => rfl
  · rfl
  · refine broadcastInDim_apply _ _ _ (ix3 (0 : Fin 1) a k) (ix2 a k) ?_
    intro b
    match b with
    | ⟨0, _⟩ => show a.val = if (50000 : Nat) = 1 then 0 else a.val; rw [if_neg (by decide)]
    | ⟨1, _⟩ => show k.val = if (128 : Nat) = 1 then 0 else k.val; rw [if_neg (by decide)]

/-- A row below 800000 of the concatenation is that row of the first array. -/
theorem cat2_fst (A B : HF.Arr S800000x64) (e : Fin 800000) (k : Fin 64) :
    HF.cat2 A B (ix2 (⟨e.val, by omega⟩ : Fin 1600000) k) = A (ix2 e k) := by
  unfold HF.cat2
  refine concatenate_pair_apply_left (t := S1600000x64) (s₁ := S800000x64) (s₂ := S800000x64) (0 : Fin 2) _ _ _ (ix2 (⟨e.val, by omega⟩ : Fin 1600000) k) rfl (ix2 e k) ?_
  intro b
  match b with
  | ⟨0, _⟩ => rfl
  | ⟨1, _⟩ => rfl

/-- A row from 800000 on is row (number − 800000) of the second array. -/
theorem cat2_snd (A B : HF.Arr S800000x64) (e : Fin 800000) (k : Fin 64) :
    HF.cat2 A B (ix2 (⟨e.val + 800000, by omega⟩ : Fin 1600000) k) = B (ix2 e k) := by
  unfold HF.cat2
  refine concatenate_pair_apply_right (t := S1600000x64) (s₁ := S800000x64) (s₂ := S800000x64) (0 : Fin 2) _ _ _ (ix2 (⟨e.val + 800000, by omega⟩ : Fin 1600000) k) rfl rfl (ix2 e k) ?_ ?_
  · intro b hb
    match b with
    | ⟨0, _⟩ => exact absurd rfl hb
    | ⟨1, _⟩ => rfl
  · rfl

/-- The column read as a vector, at position e. -/
theorem flat_apply (S : HF.Arr S1600000x1) (e : Fin 1600000) :
    HF.flat S (ix1 e) = S (ix2 e (0 : Fin 1)) := by
  unfold HF.flat
  refine shapeCast_apply _ _ (ix1 e) (ix2 e (0 : Fin 1)) ?_
  rw [Shape.rowMajor_val_two, Shape.rowMajor_val_one]
  show e.val * 1 + 0 = e.val
  omega

/-- The first half of the vector of scores. -/
theorem firstHalf_apply (v : HF.Arr S1600000) (e : Fin 800000) :
    HF.firstHalf v (ix1 e) = v (ix1 (⟨e.val, by omega⟩ : Fin 1600000)) := by
  unfold HF.firstHalf
  refine extractStridedSlice_apply _ _ _ (ix1 e) (ix1 (⟨e.val, by omega⟩ : Fin 1600000)) ?_
  intro b
  match b with
  | ⟨0, _⟩ => show e.val = 0 + e.val; omega

/-- The second half. -/
theorem secondHalf_apply (v : HF.Arr S1600000) (e : Fin 800000) :
    HF.secondHalf v (ix1 e) = v (ix1 (⟨e.val + 800000, by omega⟩ : Fin 1600000)) := by
  unfold HF.secondHalf
  refine extractStridedSlice_apply _ _ _ (ix1 e) (ix1 (⟨e.val + 800000, by omega⟩ : Fin 1600000)) ?_
  intro b
  match b with
  | ⟨0, _⟩ => show e.val + 800000 = 800000 + e.val; omega

end Cert.Sage.Lay

end
-- ==== Proof.Spec.lean ====
/-
  The mathematics both programs compute, as functions of `Fin`-indexed families of extended reals.

  A node's layer output before activation is, starting from the value of the zero word and for relation 0 and
  then relation 1 in turn: the node's own feature row times the relation's self weights, plus the mean feature
  row of its in-neighbours times the relation's neighbour weights, plus the relation's bias — the six terms added
  in exactly that order (`layerPre`). An edge's score is the value of the zero word plus the sum over the 64
  output features of the products of its two endpoints' features (`rowDot`).
  `cur2`/`cur3` read an array given on a shape's index type by coordinates, `unc1`/`unc2` go back.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The value of the f32 word of +0.0. -/
abbrev z32 : EReal := Ideal.ofBits .f32 0x00000000#32

/-- A rank-2 array read by coordinates. -/
abbrev cur2 {α : Type} {n0 n1 : Nat} (A : (⟨2, ![n0, n1]⟩ : Shape).Idx → α) : Fin n0 → Fin n1 → α :=
  fun a b => A (ix2 a b)
/-- A rank-3 array read by coordinates. -/
abbrev cur3 {α : Type} {n0 n1 n2 : Nat} (A : (⟨3, ![n0, n1, n2]⟩ : Shape).Idx → α) : Fin n0 → Fin n1 → Fin n2 → α :=
  fun a b c => A (ix3 a b c)
/-- A family over two coordinates as a rank-2 array. -/
def unc2 {α : Type} {n0 n1 : Nat} (f : Fin n0 → Fin n1 → α) : (⟨2, ![n0, n1]⟩ : Shape).Idx → α :=
  fun q => f (q 0) (q 1)
/-- A family over one coordinate as a rank-1 array. -/
def unc1 {α : Type} {n0 : Nat} (f : Fin n0 → α) : (⟨1, ![n0]⟩ : Shape).Idx → α :=
  fun q => f (q 0)

theorem unc2_ix2 {α : Type} {n0 n1 : Nat} (f : Fin n0 → Fin n1 → α) (a : Fin n0) (b : Fin n1) :
    unc2 f (ix2 a b) = f a b := rfl
theorem unc1_ix1 {α : Type} {n0 : Nat} (f : Fin n0 → α) (a : Fin n0) : unc1 f (ix1 a) = f a := rfl
theorem unc2_cur2 {α : Type} {n0 n1 : Nat} (A : (⟨2, ![n0, n1]⟩ : Shape).Idx → α) : unc2 (cur2 A) = A :=
  funext fun q => congrArg A (eq_ix2 q).symm

/-- Two rank-2 arrays that agree at every pair of coordinates are equal. -/
theorem ext2 {α : Type} {n0 n1 : Nat} {A B : (⟨2, ![n0, n1]⟩ : Shape).Idx → α}
    (h : ∀ (a : Fin n0) (b : Fin n1), A (ix2 a b) = B (ix2 a b)) : A = B :=
  funext fun q => by rw [eq_ix2 q]; exact h _ _
/-- Two rank-1 arrays that agree at every coordinate are equal. -/
theorem ext1 {α : Type} {n0 : Nat} {A B : (⟨1, ![n0]⟩ : Shape).Idx → α}
    (h : ∀ a : Fin n0, A (ix1 a) = B (ix1 a)) : A = B :=
  funext fun q => by rw [eq_ix1 q]; exact h _

/-- One layer before activation at node `i` and output feature `j`: from the zero word's value, relation 0's self
    term, neighbour term and bias, then relation 1's, added in that order. `X` holds the nodes' features, `M0`, `M1`
    the two relations' mean neighbour features, `Ws`, `Wn` the self and neighbour weights, `b` the biases. -/
def layerPre {N O : Nat} (X M0 M1 : Fin N → Fin 128 → EReal) (Ws Wn : Fin 2 → Fin 128 → Fin O → EReal)
    (b : Fin 2 → Fin O → EReal) (i : Fin N) (j : Fin O) : EReal :=
  (((((z32 + ∑ k : Fin 128, X i k * Ws 0 k j) + ∑ k : Fin 128, M0 i k * Wn 0 k j) + b 0 j)
    + ∑ k : Fin 128, X i k * Ws 1 k j) + ∑ k : Fin 128, M1 i k * Wn 1 k j) + b 1 j

/-- The first layer's output: `layerPre` cut off below at the zero word's value. -/
def layerRelu {N O : Nat} (X M0 M1 : Fin N → Fin 128 → EReal) (Ws Wn : Fin 2 → Fin 128 → Fin O → EReal)
    (b : Fin 2 → Fin O → EReal) (i : Fin N) (j : Fin O) : EReal :=
  max (layerPre X M0 M1 Ws Wn b i j) z32

/-- An edge's score: the zero word's value plus the sum over the features of the products of the two rows. -/
def rowDot {E : Nat} (A B : Fin E → Fin 64 → EReal) (e : Fin E) : EReal :=
  z32 + ∑ k : Fin 64, A e k * B e k

end Cert.Sage

end
-- ==== Proof.Model.lean ====
/-
  The whole computation as ONE function of the nine arguments, the term both programs' results are shown to be.

  `hidden` is the first layer: at node `i`, feature `j`, `layerRelu` of the nodes' features, the two relations' mean
  aggregations of them, and the first layer's weights and biases. `embed` is the second layer: `layerPre` of `hidden`,
  the mean aggregations of `hidden`, and the second layer's parameters. `posScore` / `negScore` are, per pair, the
  product summed over the 64 features of the two endpoints' rows of `embed` (`rowDot`), the endpoints taken from
  relation 0's edges, respectively from the negative pairs.
-/
import proofs.«166113_j68092411510980_1_alg».proof.Proof.Spec
import proofs.«166113_j68092411510980_1_alg».proof.Proof.HostFns

noncomputable section

namespace Cert.Sage.Model

open Cert.KernelIdeal Cert.Sage
open Idealize.ShloMosaic Idealize.ShloMosaic.ValueIdx

variable (X : HF.Arr S50000x128) (E : HF.IArr S2x2x800000) (NE : HF.IArr S2x800000)
  (Wn1 Ws1 : HF.Arr S2x128x128) (b1 : HF.Arr S2x128) (Wn2 Ws2 : HF.Arr S2x128x64) (b2 : HF.Arr S2x64)

/-- The first layer's output, [50000,128]. -/
def hidden : HF.Arr S50000x128 :=
  unc2 (layerRelu (N := 50000) (O := 128) (cur2 (X : S50000x128.Idx → EReal))
    (cur2 (HF.meanOf X (HF.edge00 E) (HF.edge01 E) : S50000x128.Idx → EReal))
    (cur2 (HF.meanOf X (HF.edge10 E) (HF.edge11 E) : S50000x128.Idx → EReal))
    (cur3 (Ws1 : S2x128x128.Idx → EReal)) (cur3 (Wn1 : S2x128x128.Idx → EReal)) (cur2 (b1 : S2x128.Idx → EReal)))

/-- The second layer's output, [50000,64]. -/
def embed : HF.Arr S50000x64 :=
  unc2 (layerPre (N := 50000) (O := 64) (cur2 (hidden X E Wn1 Ws1 b1 : S50000x128.Idx → EReal))
    (cur2 (HF.meanOf (hidden X E Wn1 Ws1 b1) (HF.edge00 E) (HF.edge01 E) : S50000x128.Idx → EReal))
    (cur2 (HF.meanOf (hidden X E Wn1 Ws1 b1) (HF.edge10 E) (HF.edge11 E) : S50000x128.Idx → EReal))
    (cur3 (Ws2 : S2x128x64.Idx → EReal)) (cur3 (Wn2 : S2x128x64.Idx → EReal)) (cur2 (b2 : S2x64.Idx → EReal)))

/-- The scores of relation 0's edges. -/
def posScore : HF.Arr S800000 :=
  unc1 (rowDot (E := 800000)
    (cur2 (HF.takeRows (embed X E Wn1 Ws1 b1 Wn2 Ws2 b2) (HF.edge00 E) : S800000x64.Idx → EReal))
    (cur2 (HF.takeRows (embed X E Wn1 Ws1 b1 Wn2 Ws2 b2) (HF.edge01 E) : S800000x64.Idx → EReal)))

/-- The scores of the negative pairs. -/
def negScore : HF.Arr S800000 :=
  unc1 (rowDot (E := 800000)
    (cur2 (HF.takeRows (embed X E Wn1 Ws1 b1 Wn2 Ws2 b2) (HF.negRow0 NE) : S800000x64.Idx → EReal))
    (cur2 (HF.takeRows (embed X E Wn1 Ws1 b1 Wn2 Ws2 b2) (HF.negRow1 NE) : S800000x64.Idx → EReal)))

end Cert.Sage.Model

end
-- ==== Proof.KLayer1.lean ====
/-
  The first layer's region, read as mathematics.

  At every grid point `t` (50 of them) the body sees rows `1000 t … 1000 t + 999` of the node features and of the
  two relations' mean neighbour features, the whole self and neighbour weight arrays and the whole bias array, and
  stores into rows `1000 t … 1000 t + 999` of the output, at column `q` of row `p`:
  the zero word's value, plus the feature row times relation 0's self weights, plus relation 0's mean row times its
  neighbour weights, plus its bias, plus the same three terms for relation 1, in that order, cut off below at the zero
  word's value. That is the specification's `layerRelu` at node `1000 t + p` and feature `q`; the 50 row blocks
  tile the output array, so after the region the array is `layerRelu` at every index (`final0`).

  The steps: a matrix product into the zero accumulator read at an entry is the plain sum over the contracted
  coordinate (`mm_apply`); narrowing a value's format changes nothing at the extended reals; the layout operations on
  the weight slabs and the bias rows only rename coordinates (`mmW_apply`, `mmMW_apply`, `bias_apply`, the `ld…`
  lemmas); so the stored value at `(p, q)` is the formula above of the five input blocks (`pay_apply`). An input
  block's entry is the array's entry at block index × block size + the coordinate inside the block, the block
  indices being `t` on the row axis of the three moving windows and 0 elsewhere (`idx_facts`, `blkX` … `blkB`,
  `embO`). Hence what point `t` writes back is block `t` of one function `G` of the arrays (`flushed_eq`), and row
  `r` of the output lies in the block of point `r / 1000` (`cover`).
-/
import proofs.«166113_j68092411510980_1_alg».proof.Proof.Gen.KernelIdeal.Frame
import proofs.«166113_j68092411510980_1_alg».proof.Proof.Spec
import Idealize.ShloMosaic.Lib.Pipeline.Value
import Idealize.ShloMosaic.Lib.ValueLayout

set_option maxHeartbeats 400000
noncomputable section
open Idealize.ShloMosaic Idealize.ShloMosaic.TcCoe Idealize.SL.Sem Idealize.ShloMosaic.ValueIdx
open Idealize.ShloMosaic.Pipeline (Dat)
open scoped BigOperators

namespace Cert.Sage.L1
open Cert.KernelIdeal Cert.KernelIdeal.Gen Cert.Sage

/-! ## The matrix product at an entry -/

/-- The product's left index keeps the output's row … -/
theorem mm_lhs0 (i : S1000x128.Idx) (k : dot_S1000x128_S128x128_S1000x128_1_0_0_1_n_n.contr.Idx) :
    (dot_S1000x128_S128x128_S1000x128_1_0_0_1_n_n.lhsIdx i k 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … and takes the contracted coordinate as its column; -/
theorem mm_lhs1 (i : S1000x128.Idx) (k : dot_S1000x128_S128x128_S1000x128_1_0_0_1_n_n.contr.Idx) :
    (dot_S1000x128_S128x128_S1000x128_1_0_0_1_n_n.lhsIdx i k 1).val = (k ⟨0, by decide⟩).val :=
  dot_S1000x128_S128x128_S1000x128_1_0_0_1_n_n.lhsIdx_val_of_single rfl i k
/-- the right index takes the contracted coordinate as its row … -/
theorem mm_rhs0 (i : S1000x128.Idx) (k : dot_S1000x128_S128x128_S1000x128_1_0_0_1_n_n.contr.Idx) :
    (dot_S1000x128_S128x128_S1000x128_1_0_0_1_n_n.rhsIdx i k 0).val = (k ⟨0, by decide⟩).val :=
  dot_S1000x128_S128x128_S1000x128_1_0_0_1_n_n.rhsIdx_val_of_single rfl i k
/-- … and keeps the output's column. -/
theorem mm_rhs1 (i : S1000x128.Idx) (k : dot_S1000x128_S128x128_S1000x128_1_0_0_1_n_n.contr.Idx) :
    (dot_S1000x128_S128x128_S1000x128_1_0_0_1_n_n.rhsIdx i k 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A [1000,128] by [128,128] product into the zero accumulator, at row `p` and column `q`: the sum over the
    128 contracted coordinates of the products of the row's and the column's entries. -/
theorem mm_apply (a : FVec Ideal S1000x128 .bf16) (b : FVec Ideal S128x128 .bf16) (p : Fin 1000) (q : Fin 128) :
    matmul dot_S1000x128_S128x128_S1000x128_1_0_0_1_n_n none a b (constant S1000x128 .f32 0x00000000#32) (ix2 p q)
      = ∑ k : Fin 128, a (ix2 p k) * b (ix2 k q) := by
  refine (Ideal.matmul_constant_zero_apply dot_S1000x128_S128x128_S1000x128_1_0_0_1_n_n none a b (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun ax => Fin.ext (by
    match ax with
    | ⟨0, _⟩ => exact mm_lhs0 _ _
    | ⟨1, _⟩ => exact (mm_lhs1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun ax => Fin.ext (by
    match ax with
    | ⟨0, _⟩ => exact (mm_rhs0 _ _).trans hk
    | ⟨1, _⟩ => exact mm_rhs1 _ _)
  rw [el, er]

/-! ## The operands of a product, the bias row, the loads -/

/-- A product whose left operand is a [1000,128] block and whose right operand is a [1,128,128] weight slab
    (both narrowed, which changes no value): the sum over `k` of the block's `(p, k)` entry times the slab's
    `(0, k, q)` entry. -/
theorem mmW_apply (X : Vec Ideal S1000x128 .f32) (W : Vec Ideal S1x128x128 .f32) (p : Fin 1000) (q : Fin 128) :
    matmul (F := Ideal) dot_S1000x128_S128x128_S1000x128_1_0_0_1_n_n none (truncf .bf16 X bitsLt_bf16_f32)
        (truncf .bf16 (shapeCast S128x128 W shapeCasts_S1x128x128_S128x128) bitsLt_bf16_f32)
        (constant (F := Ideal) S1000x128 .f32 0x00000000#32) (ix2 p q)
      = ∑ k : Fin 128, X (ix2 p k) * W (ix3 (0 : Fin 1) k q) :=
  (mm_apply _ _ p q).trans (Finset.sum_congr rfl fun k _ => by
    rw [truncf_apply, truncf_apply, shapeCast_1ab_ab_apply])

/-- The same with the left operand a [1,1000,128] slab of mean rows. -/
theorem mmMW_apply (M : Vec Ideal S1x1000x128 .f32) (W : Vec Ideal S1x128x128 .f32) (p : Fin 1000) (q : Fin 128) :
    matmul (F := Ideal) dot_S1000x128_S128x128_S1000x128_1_0_0_1_n_n none
        (truncf .bf16 (shapeCast S1000x128 M shapeCasts_S1x1000x128_S1000x128) bitsLt_bf16_f32)
        (truncf .bf16 (shapeCast S128x128 W shapeCasts_S1x128x128_S128x128) bitsLt_bf16_f32)
        (constant (F := Ideal) S1000x128 .f32 0x00000000#32) (ix2 p q)
      = ∑ k : Fin 128, M (ix3 (0 : Fin 1) p k) * W (ix3 (0 : Fin 1) k q) :=
  (mm_apply _ _ p q).trans (Finset.sum_congr rfl fun k _ => by
    rw [truncf_apply, truncf_apply, shapeCast_1ab_ab_apply, shapeCast_1ab_ab_apply])

/-- A [1,128] bias row flattened, restored and repeated over the 1000 rows reads, at `(p, q)`, the row's entry `q`. -/
theorem bias_apply (b : Vec Ideal S1x128 .f32) (p : Fin 1000) (q : Fin 128) :
    broadcastTo S1000x128 (shapeCast S1x128 (shapeCast S128 b shapeCasts_S1x128_S128) shapeCasts_S128_S1x128)
        broadcasts_S1x128_S1000x128 (ix2 p q) = b (ix2 (0 : Fin 1) q) := by
  rw [shapeCast_shapeCast]
  exact broadcastTo_1b_ab_apply b broadcasts_S1x128_S1000x128 p q

/-- Slab `r` of a [2,128,128] weight array, loaded as a [1,128,128] block. -/
theorem ldW0 (x : Vec Ideal S2x128x128 .f32) (k q : Fin 128) :
    (View.ld x r0_1 : Vec Ideal S1x128x128 .f32) (ix3 (0 : Fin 1) k q) = x (ix3 (0 : Fin 2) k q) :=
  congrArg x (funext fun ax => Fin.ext (by
    match ax with
    | ⟨0, _⟩ => rfl
    | ⟨1, _⟩ => show 0 + 1 * k.val = k.val; omega
    | ⟨2, _⟩ => show 0 + 1 * q.val = q.val; omega))
theorem ldW1 (x : Vec Ideal S2x128x128 .f32) (k q : Fin 128) :
    (View.ld x r0_4 : Vec Ideal S1x128x128 .f32) (ix3 (0 : Fin 1) k q) = x (ix3 (1 : Fin 2) k q) :=
  congrArg x (funext fun ax => Fin.ext (by
    match ax with
    | ⟨0, _⟩ => rfl
    | ⟨1, _⟩ => show 0 + 1 * k.val = k.val; omega
    | ⟨2, _⟩ => show 0 + 1 * q.val = q.val; omega))
/-- Slab `r` of the [2,1000,128] block of mean rows. -/
theorem ldM0 (x : Vec Ideal S2x1000x128 .f32) (p : Fin 1000) (k : Fin 128) :
    (View.ld x r0_2 : Vec Ideal S1x1000x128 .f32) (ix3 (0 : Fin 1) p k) = x (ix3 (0 : Fin 2) p k) :=
  congrArg x (funext fun ax => Fin.ext (by
    match ax with
    | ⟨0, _⟩ => rfl
    | ⟨1, _⟩ => show 0 + 1 * p.val = p.val; omega
    | ⟨2, _⟩ => show 0 + 1 * k.val = k.val; omega))
theorem ldM1 (x : Vec Ideal S2x1000x128 .f32) (p : Fin 1000) (k : Fin 128) :
    (View.ld x r0_5 : Vec Ideal S1x1000x128 .f32) (ix3 (0 : Fin 1) p k) = x (ix3 (1 : Fin 2) p k) :=
  congrArg x (funext fun ax => Fin.ext (by
    match ax with
    | ⟨0, _⟩ => rfl
    | ⟨1, _⟩ => show 0 + 1 * p.val = p.val; omega
    | ⟨2, _⟩ => show 0 + 1 * k.val = k.val; omega))
/-- Row `r` of the [2,128] bias block. -/
theorem ldB0 (x : Vec Ideal S2x128 .f32) (q : Fin 128) :
    (View.ld x r0_3 : Vec Ideal S1x128 .f32) (ix2 (0 : Fin 1) q) = x (ix2 (0 : Fin 2) q) :=
  congrArg x (funext fun ax => Fin.ext (by
    match ax with
    | ⟨0, _⟩ => rfl
    | ⟨1, _⟩ => show 0 + 1 * q.val = q.val; omega))
theorem ldB1 (x : Vec Ideal S2x128 .f32) (q : Fin 128) :
    (View.ld x r0_6 : Vec Ideal S1x128 .f32) (ix2 (0 : Fin 1) q) = x (ix2 (1 : Fin 2) q) :=
  congrArg x (funext fun ax => Fin.ext (by
    match ax with
    | ⟨0, _⟩ => rfl
    | ⟨1, _⟩ => show 0 + 1 * q.val = q.val; omega))

theorem hz : (![0, 0] : Fin 2 → Nat) = fun _ => 0 := funext fun a => by fin_cases a <;> rfl

/-! ## The body's value at an entry of the output block -/

/-- The feature block times slab 0 of a weight array … -/
theorem mmXW0 (x0 : Vec Ideal S1000x128 .f32) (x2 : Vec Ideal S2x128x128 .f32) (p : Fin 1000) (q : Fin 128) :
    matmul (F := Ideal) dot_S1000x128_S128x128_S1000x128_1_0_0_1_n_n none (truncf .bf16 x0 bitsLt_bf16_f32)
        (truncf .bf16 (shapeCast S128x128 (View.ld x2 r0_1) shapeCasts_S1x128x128_S128x128) bitsLt_bf16_f32)
        (constant (F := Ideal) S1000x128 .f32 0x00000000#32) (ix2 p q)
      = ∑ k : Fin 128, x0 (ix2 p k) * x2 (ix3 (0 : Fin 2) k q) :=
  (mmW_apply x0 (View.ld x2 r0_1) p q).trans
    (Finset.sum_congr rfl fun k _ => congrArg (x0 (ix2 p k) * ·) (ldW0 x2 k q))
/-- … and times slab 1. -/
theorem mmXW1 (x0 : Vec Ideal S1000x128 .f32) (x2 : Vec Ideal S2x128x128 .f32) (p : Fin 1000) (q : Fin 128) :
    matmul (F := Ideal) dot_S1000x128_S128x128_S1000x128_1_0_0_1_n_n none (truncf .bf16 x0 bitsLt_bf16_f32)
        (truncf .bf16 (shapeCast S128x128 (View.ld x2 r0_4) shapeCasts_S1x128x128_S128x128) bitsLt_bf16_f32)
        (constant (F := Ideal) S1000x128 .f32 0x00000000#32) (ix2 p q)
      = ∑ k : Fin 128, x0 (ix2 p k) * x2 (ix3 (1 : Fin 2) k q) :=
  (mmW_apply x0 (View.ld x2 r0_4) p q).trans
    (Finset.sum_congr rfl fun k _ => congrArg (x0 (ix2 p k) * ·) (ldW1 x2 k q))
/-- Slab 0 of the mean rows times slab 0 of a weight array … -/
theorem mmMW0 (x1 : Vec Ideal S2x1000x128 .f32) (x3 : Vec Ideal S2x128x128 .f32) (p : Fin 1000) (q : Fin 128) :
    matmul (F := Ideal) dot_S1000x128_S128x128_S1000x128_1_0_0_1_n_n none
        (truncf .bf16 (shapeCast S1000x128 (View.ld x1 r0_2) shapeCasts_S1x1000x128_S1000x128) bitsLt_bf16_f32)
        (truncf .bf16 (shapeCast S128x128 (View.ld x3 r0_1) shapeCasts_S1x128x128_S128x128) bitsLt_bf16_f32)
        (constant (F := Ideal) S1000x128 .f32 0x00000000#32) (ix2 p q)
      = ∑ k : Fin 128, x1 (ix3 (0 : Fin 2) p k) * x3 (ix3 (0 : Fin 2) k q) :=
  (mmMW_apply (View.ld x1 r0_2) (View.ld x3 r0_1) p q).trans
    (Finset.sum_congr rfl fun k _ => congrArg₂ (· * ·) (ldM0 x1 p k) (ldW0 x3 k q))
/-- … and slab 1 times slab 1. -/
theorem mmMW1 (x1 : Vec Ideal S2x1000x128 .f32) (x3 : Vec Ideal S2x128x128 .f32) (p : Fin 1000) (q : Fin 128) :
    matmul (F := Ideal) dot_S1000x128_S128x128_S1000x128_1_0_0_1_n_n none
        (truncf .bf16 (shapeCast S1000x128 (View.ld x1 r0_5) shapeCasts_S1x1000x128_S1000x128) bitsLt_bf16_f32)
        (truncf .bf16 (shapeCast S128x128 (View.ld x3 r0_4) shapeCasts_S1x128x128_S128x128) bitsLt_bf16_f32)
        (constant (F := Ideal) S1000x128 .f32 0x00000000#32) (ix2 p q)
      = ∑ k : Fin 128, x1 (ix3 (1 : Fin 2) p k) * x3 (ix3 (1 : Fin 2) k q) :=
  (mmMW_apply (View.ld x1 r0_5) (View.ld x3 r0_4) p q).trans
    (Finset.sum_congr rfl fun k _ => congrArg₂ (· * ·) (ldM1 x1 p k) (ldW1 x3 k q))
/-- The two bias rows, each repeated over the block's rows. -/
theorem biasB0 (x4 : Vec Ideal S2x128 .f32) (p : Fin 1000) (q : Fin 128) :
    broadcastTo S1000x128 (shapeCast S1x128 (shapeCast S128 (View.ld x4 r0_3) shapeCasts_S1x128_S128) shapeCasts_S128_S1x128)
        broadcasts_S1x128_S1000x128 (ix2 p q) = x4 (ix2 (0 : Fin 2) q) :=
  (bias_apply (View.ld x4 r0_3) p q).trans (ldB0 x4 q)
theorem biasB1 (x4 : Vec Ideal S2x128 .f32) (p : Fin 1000) (q : Fin 128) :
    broadcastTo S1000x128 (shapeCast S1x128 (shapeCast S128 (View.ld x4 r0_6) shapeCasts_S1x128_S128) shapeCasts_S128_S1x128)
        broadcasts_S1x128_S1000x128 (ix2 p q) = x4 (ix2 (1 : Fin 2) q) :=
  (bias_apply (View.ld x4 r0_6) p q).trans (ldB1 x4 q)

/-- What the body stores at `(p, q)` of its output block, from the five input blocks: the zero word's value, then
    for relation 0 and relation 1 the feature row times the self weights, the mean row times the neighbour weights
    and the bias, added in that order, cut off below at the zero word's value. -/
theorem pay_apply (x0 : Vec Ideal S1000x128 .f32) (x1 : Vec Ideal S2x1000x128 .f32) (x2 x3 : Vec Ideal S2x128x128 .f32)
    (x4 : Vec Ideal S2x128 .f32) (p : Fin 1000) (q : Fin 128) :
    k0_pay1 (F := Ideal) (k0_pay2 (View.ld x3 r0_4)) (k0_pay3 (View.ld x1 r0_5))
        (k0_pay4 (View.ld x0 r0_0) (View.ld x2 r0_1) (View.ld x3 r0_1) (View.ld x1 r0_2) (View.ld x4 r0_3) (View.ld x2 r0_4))
        (constant S1000x128 .f32 0x00000000#32) (View.ld x4 r0_6) (ix2 p q)
      = max ((((((z32 + ∑ k : Fin 128, x0 (ix2 p k) * x2 (ix3 (0 : Fin 2) k q))
          + ∑ k : Fin 128, x1 (ix3 (0 : Fin 2) p k) * x3 (ix3 (0 : Fin 2) k q)) + x4 (ix2 (0 : Fin 2) q))
          + ∑ k : Fin 128, x0 (ix2 p k) * x2 (ix3 (1 : Fin 2) k q))
          + ∑ k : Fin 128, x1 (ix3 (1 : Fin 2) p k) * x3 (ix3 (1 : Fin 2) k q)) + x4 (ix2 (1 : Fin 2) q)) z32 := by
  unfold k0_pay1 k0_pay2 k0_pay3 k0_pay4
  dsimp only
  rw [View.ld_unit_zero (S := S1000x128) hz]
  simp only [maximumf_apply, addf_apply, broadcast_apply]
  refine congrArg₂ max ?_ rfl
  refine congrArg₂ (· + ·) (congrArg₂ (· + ·) (congrArg₂ (· + ·) (congrArg₂ (· + ·) (congrArg₂ (· + ·)
    (congrArg₂ (· + ·) rfl ?_) ?_) ?_) ?_) ?_) ?_
  · exact mmXW0 x0 x2 p q
  · exact mmMW0 x1 x3 p q
  · exact biasB0 x4 p q
  · exact mmXW1 x0 x2 p q
  · exact mmMW1 x1 x3 p q
  · exact biasB1 x4 p q

/-! ## From the blocks to the array -/

/-- The printed index maps, over the grid: at point `t` the feature, mean and output windows sit at row block
    `t` (and at block 0 on their other axes); the weight and bias windows are whole. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem point_lt (t : Fin cfg0.N) : t.val < 50 := by
  exact Nat.lt_of_lt_of_eq t.isLt (show cfg0.N = 50 from N_0)

/-- Row `p` of point `t`'s block is row `1000 t + p` of the array. -/
def row (t : Fin cfg0.N) (p : Fin 1000) : Fin 50000 :=
  ⟨1000 * t.val + p.val, by have h := point_lt t; have hp := p.isLt; omega⟩

variable (V : (c : Dev nD) → (b : Ref sig .tc) → Buf (Elt Ideal) ((c : Thread nD τ).loc b))

/-- The feature block at point `t`: rows `1000 t …` of the feature array. -/
theorem blkX (c : Dev nD) (t : Fin cfg0.N) (p : Fin 1000) (k : Fin 128) :
    (iblk0 V c 0 t : Vec Ideal S1000x128 .f32) (ix2 p k)
      = (V c main_arg0 : S50000x128.Idx → EReal) (ix2 (row t p) k) := by
  unfold iblk0
  rw [View.read_apply]
  show (V c main_arg0 : S50000x128.Idx → EReal) _ = _
  refine congrArg _ (funext fun a => Fin.ext ?_)
  obtain ⟨⟨e0, e1⟩, -⟩ := idx_facts t
  match a with
  | ⟨0, _⟩ => show win0_0.index t (0 : Fin 2) * 1000 + 1 * p.val = 1000 * t.val + p.val; rw [e0]; omega
  | ⟨1, _⟩ => show win0_0.index t (1 : Fin 2) * 128 + 1 * k.val = k.val; rw [e1]; omega

/-- The block of mean rows at point `t`: both relations' rows `1000 t …`. -/
theorem blkM (c : Dev nD) (t : Fin cfg0.N) (r : Fin 2) (p : Fin 1000) (k : Fin 128) :
    (iblk0 V c 1 t : Vec Ideal S2x1000x128 .f32) (ix3 r p k)
      = (V c main_v48 : S2x50000x128.Idx → EReal) (ix3 r (row t p) k) := by
  unfold iblk0
  rw [View.read_apply]
  show (V c main_v48 : S2x50000x128.Idx → EReal) _ = _
  refine congrArg _ (funext fun a => Fin.ext ?_)
  obtain ⟨-, ⟨e0, e1, e2⟩, -⟩ := idx_facts t
  match a with
  | ⟨0, _⟩ => show win0_1.index t (0 : Fin 3) * 2 + 1 * r.val = r.val; rw [e0]; omega
  | ⟨1, _⟩ => show win0_1.index t (1 : Fin 3) * 1000 + 1 * p.val = 1000 * t.val + p.val; rw [e1]; omega
  | ⟨2, _⟩ => show win0_1.index t (2 : Fin 3) * 128 + 1 * k.val = k.val; rw [e2]; omega

/-- The self weights' block is the whole array at every point … -/
theorem blkWs (c : Dev nD) (t : Fin cfg0.N) (r : Fin 2) (k q : Fin 128) :
    (iblk0 V c 2 t : Vec Ideal S2x128x128 .f32) (ix3 r k q)
      = (V c main_arg4 : S2x128x128.Idx → EReal) (ix3 r k q) := by
  unfold iblk0
  rw [View.read_apply]
  show (V c main_arg4 : S2x128x128.Idx → EReal) _ = _
  refine congrArg _ (funext fun a => Fin.ext ?_)
  obtain ⟨-, -, ⟨e0, e1, e2⟩, -⟩ := idx_facts t
  match a with
  | ⟨0, _⟩ => show win0_2.index t (0 : Fin 3) * 2 + 1 * r.val = r.val; rw [e0]; omega
  | ⟨1, _⟩ => show win0_2.index t (1 : Fin 3) * 128 + 1 * k.val = k.val; rw [e1]; omega
  | ⟨2, _⟩ => show win0_2.index t (2 : Fin 3) * 128 + 1 * q.val = q.val; rw [e2]; omega

/-- … so is the neighbour weights' … -/
theorem blkWn (c : Dev nD) (t : Fin cfg0.N) (r : Fin 2) (k q : Fin 128) :
    (iblk0 V c 3 t : Vec Ideal S2x128x128 .f32) (ix3 r k q)
      = (V c main_arg3 : S2x128x128.Idx → EReal) (ix3 r k q) := by
  unfold iblk0
  rw [View.read_apply]
  show (V c main_arg3 : S2x128x128.Idx → EReal) _ = _
  refine congrArg _ (funext fun a => Fin.ext ?_)
  obtain ⟨-, -, -, ⟨e0, e1, e2⟩, -⟩ := idx_facts t
  match a with
  | ⟨0, _⟩ => show win0_3.index t (0 : Fin 3) * 2 + 1 * r.val = r.val; rw [e0]; omega
  | ⟨1, _⟩ => show win0_3.index t (1 : Fin 3) * 128 + 1 * k.val = k.val; rw [e1]; omega
  | ⟨2, _⟩ => show win0_3.index t (2 : Fin 3) * 128 + 1 * q.val = q.val; rw [e2]; omega

/-- … and the biases'. -/
theorem blkB (c : Dev nD) (t : Fin cfg0.N) (r : Fin 2) (q : Fin 128) :
    (iblk0 V c 4 t : Vec Ideal S2x128 .f32) (ix2 r q)
      = (V c main_arg5 : S2x128.Idx → EReal) (ix2 r q) := by
  unfold iblk0
  rw [View.read_apply]
  show (V c main_arg5 : S2x128.Idx → EReal) _ = _
  refine congrArg _ (funext fun a => Fin.ext ?_)
  obtain ⟨-, -, -, -, ⟨e0, e1⟩, -⟩ := idx_facts t
  match a with
  | ⟨0, _⟩ => show win0_4.index t (0 : Fin 2) * 2 + 1 * r.val = r.val; rw [e0]; omega
  | ⟨1, _⟩ => show win0_4.index t (1 : Fin 2) * 128 + 1 * q.val = q.val; rw [e1]; omega

/-- Entry `(p, q)` of the output window's block at point `t` is entry `(1000 t + p, q)` of the output array. -/
theorem embO (t : Fin cfg0.N) (p : Fin 1000) (q : Fin 128) :
    ((cfg0.win 5).blk t).view.emb (ix2 p q) = (ix2 (row t p) q : S50000x128.Idx) := by
  refine funext fun a => Fin.ext ?_
  obtain ⟨-, -, -, -, -, ⟨e0, e1⟩⟩ := idx_facts t
  match a with
  | ⟨0, _⟩ => show win0_5.index t (0 : Fin 2) * 1000 + 1 * p.val = 1000 * t.val + p.val; rw [e0]; omega
  | ⟨1, _⟩ => show win0_5.index t (1 : Fin 2) * 128 + 1 * q.val = q.val; rw [e1]; omega

/-- The first layer's output as one function of the arrays the region finds: at node `i` and feature `j` the
    specification's `layerRelu` of the features, the two relations' mean rows, the weights and the biases. -/
abbrev G (c : Dev nD) : S50000x128.Idx → EReal :=
  unc2 (layerRelu (N := 50000) (O := 128) (cur2 (V c main_arg0 : S50000x128.Idx → EReal))
    (fun a k => (V c main_v48 : S2x50000x128.Idx → EReal) (ix3 (0 : Fin 2) a k))
    (fun a k => (V c main_v48 : S2x50000x128.Idx → EReal) (ix3 (1 : Fin 2) a k))
    (cur3 (V c main_arg4 : S2x128x128.Idx → EReal)) (cur3 (V c main_arg3 : S2x128x128.Idx → EReal))
    (cur2 (V c main_arg5 : S2x128.Idx → EReal)))

/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  funext j
  obtain ⟨p, q, rfl⟩ : ∃ (p : Fin 1000) (q : Fin 128), j = ix2 p q := ⟨j 0, j 1, eq_ix2 j⟩
  refine (pay_apply _ _ _ _ _ p q).trans ?_
  rw [View.read_apply]
  show _ = G V c (((cfg0.win 5).blk t).view.emb (ix2 p q))
  rw [embO t p q]
  refine Eq.trans ?_ (unc2_ix2 _ (row t p) q).symm
  unfold layerRelu layerPre
  refine congrArg₂ max ?_ rfl
  refine congrArg₂ (· + ·) (congrArg₂ (· + ·) (congrArg₂ (· + ·) (congrArg₂ (· + ·) (congrArg₂ (· + ·)
    (congrArg₂ (· + ·) rfl ?_) ?_) ?_) ?_) ?_) ?_
  · exact Finset.sum_congr rfl fun k _ => congrArg₂ (· * ·) (blkX V c t p k) (blkWs V c t 0 k q)
  · exact Finset.sum_congr rfl fun k _ => congrArg₂ (· * ·) (blkM V c t 0 p k) (blkWn V c t 0 k q)
  · exact blkB V c t 0 q
  · exact Finset.sum_congr rfl fun k _ => congrArg₂ (· * ·) (blkX V c t p k) (blkWs V c t 1 k q)
  · exact Finset.sum_congr rfl fun k _ => congrArg₂ (· * ·) (blkM V c t 1 p k) (blkWn V c t 1 k q)
  · exact blkB V c t 1 q

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v49).slice (win0_5.rect t)).set ↔ _
  rw [View.set_slice_whole, Rect.mem_set_unit]
  exact Iff.rfl

/-- Every index of the output array is in some point's block: row `r` is in the block of point `r / 1000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, ⟨e0, e1⟩⟩ := idx_facts t
  refine ⟨t, flush0_5 t, ?_⟩
  rw [mem_blk]
  intro a
  match a with
  | ⟨0, _⟩ =>
    show win0_5.index t (0 : Fin 2) * 1000 ≤ (i 0).val ∧ (i 0).val < win0_5.index t (0 : Fin 2) * 1000 + 1000
    rw [e0, ht]; omega
  | ⟨1, _⟩ =>
    show win0_5.index t (1 : Fin 2) * 128 ≤ (i 1).val ∧ (i 1).val < win0_5.index t (1 : Fin 2) * 128 + 128
    rw [e1]; omega

/-- The output array after the region's run: the first layer's output, index by index. -/
theorem final0 (V : (c : Dev nD) → (b : Ref sig .tc) → Buf (Elt Ideal) ((c : Thread nD τ).loc b)) (c : Dev nD) :
    (dat0 (F := Ideal) V c).arrAt 5 cfg0.N =
      unc2 (layerRelu (N := 50000) (O := 128) (cur2 (V c main_arg0 : S50000x128.Idx → EReal))
        (fun a k => (V c main_v48 : S2x50000x128.Idx → EReal) (ix3 (0 : Fin 2) a k))
        (fun a k => (V c main_v48 : S2x50000x128.Idx → EReal) (ix3 (1 : Fin 2) a k))
        (cur3 (V c main_arg4 : S2x128x128.Idx → EReal)) (cur3 (V c main_arg3 : S2x128x128.Idx → EReal))
        (cur2 (V c main_arg5 : S2x128.Idx → EReal))) :=
  (dat0 (F := Ideal) V c).arrAt_eq_of_cover 5 (G V c) (fun t _ => flushed_eq V c t) cover

end Cert.Sage.L1
end
-- ==== Proof.KLayer2.lean ====
/-
  The second layer, read off the kernel: after its fifty grid points the output array holds, at node i and output
  feature j, the value of the zero word plus — for relation 0 and then relation 1 — the node's feature row times the
  relation's self weights, the mean row of its in-neighbours times the relation's neighbour weights, and the
  relation's bias, the six terms added in that order (`Cert.Sage.layerPre`), each array as the region finds it.

  Three steps. At one point and one position (p, q) of the 1000 × 64 output block, the stored value is that formula
  of the staged blocks: each of the four matrix products into the zero accumulator is the plain sum over the 128
  contracted coordinates, the narrowing of the operands is the identity on extended reals, a dropped or added unit
  axis keeps the coordinates, and the bias row is spread over the rows. Then the staged blocks are the arrays'
  rows 1000 t … 1000 t + 999 (features, stacked means) or the whole array (weights, bias), so the block point t
  writes back is block t of the formula of the arrays. Last, row r of the output lies in the block of point
  r / 1000, every point writes its block back, and so the array ends at the formula everywhere.
-/
import proofs.«166113_j68092411510980_1_alg».proof.Proof.Gen.KernelIdeal.Frame
import proofs.«166113_j68092411510980_1_alg».proof.Proof.Spec
import Idealize.ShloMosaic.Lib.Pipeline.Value
import Idealize.ShloMosaic.Lib.ValueLayout
import Idealize.ShloMosaic.PureOps.Ideal.Laws

set_option maxRecDepth 16384
noncomputable section
open Idealize.ShloMosaic Idealize.ShloMosaic.TcCoe Idealize.SL.Sem Idealize.ShloMosaic.ValueIdx
open Idealize.ShloMosaic.Pipeline (Dat)
open scoped BigOperators

namespace Cert.Sage.L2
open Cert.KernelIdeal Cert.KernelIdeal.Gen Cert.Sage

/-! ## The matrix product at an index -/

theorem product_lhs_row (i : S1000x64.Idx) (c : dot_S1000x128_S128x64_S1000x64_1_0_0_1_n_n.contr.Idx) :
    (dot_S1000x128_S128x64_S1000x64_1_0_0_1_n_n.lhsIdx i c 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem product_lhs_col (i : S1000x64.Idx) (c : dot_S1000x128_S128x64_S1000x64_1_0_0_1_n_n.contr.Idx) :
    (dot_S1000x128_S128x64_S1000x64_1_0_0_1_n_n.lhsIdx i c 1).val = (c ⟨0, by decide⟩).val :=
  dot_S1000x128_S128x64_S1000x64_1_0_0_1_n_n.lhsIdx_val_of_single rfl i c
theorem product_rhs_row (i : S1000x64.Idx) (c : dot_S1000x128_S128x64_S1000x64_1_0_0_1_n_n.contr.Idx) :
    (dot_S1000x128_S128x64_S1000x64_1_0_0_1_n_n.rhsIdx i c 0).val = (c ⟨0, by decide⟩).val :=
  dot_S1000x128_S128x64_S1000x64_1_0_0_1_n_n.rhsIdx_val_of_single rfl i c
theorem product_rhs_col (i : S1000x64.Idx) (c : dot_S1000x128_S128x64_S1000x64_1_0_0_1_n_n.contr.Idx) :
    (dot_S1000x128_S128x64_S1000x64_1_0_0_1_n_n.rhsIdx i c 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- A product of a [1000,128] by a [128,64] matrix into the zero accumulator, read at (p, q): the plain sum over the
    contracted coordinate. -/
theorem product_apply {φ₁ φ₂ : FTy} (a : FVec Ideal S1000x128 φ₁) (b : FVec Ideal S128x64 φ₂) (p : Fin 1000) (q : Fin 64) :
    matmul dot_S1000x128_S128x64_S1000x64_1_0_0_1_n_n none a b (constant (F := Ideal) S1000x64 .f32 0x00000000#32) (ix2 p q)
      = ∑ k : Fin 128, a (ix2 p k) * b (ix2 k q) := by
  refine (Ideal.matmul_constant_zero_apply dot_S1000x128_S128x64_S1000x64_1_0_0_1_n_n none a b (ix2 p q)).trans ?_
  rw [← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx (ix2 p q) ((ValueIdx.contrEquiv1 dot_S1000x128_S128x64_S1000x64_1_0_0_1_n_n 128 rfl rfl).symm k) = ix2 p k := funext fun x => Fin.ext (by
    match x with
    | ⟨0, _⟩ => exact product_lhs_row _ _
    | ⟨1, _⟩ => exact (product_lhs_col _ _).trans hk)
  have er : dot_S1000x128_S128x64_S1000x64_1_0_0_1_n_n.rhsIdx (ix2 p q) ((ValueIdx.contrEquiv1 dot_S1000x128_S128x64_S1000x64_1_0_0_1_n_n 128 rfl rfl).symm k) = ix2 k q := funext fun x => Fin.ext (by
    match x with
    | ⟨0, _⟩ => exact (product_rhs_row _ _).trans hk
    | ⟨1, _⟩ => exact product_rhs_col _ _)
  rw [el, er]

/-! ## The body's arithmetic at an index -/

/-- The bias row: a [1,64] row cast to [64] and back and spread over the 1000 rows reads, at (p, q), the row at q. -/
theorem bias_row_apply (v : Vec Ideal S1x64 .f32) (p : Fin 1000) (q : Fin 64) :
    broadcastTo S1000x64 (shapeCast S1x64 (shapeCast S64 v shapeCasts_S1x64_S64) shapeCasts_S64_S1x64) broadcasts_S1x64_S1000x64 (ix2 p q)
      = v (ix2 (0 : Fin 1) q) := by
  refine (broadcastTo_1b_ab_apply _ broadcasts_S1x64_S1000x64 p q).trans ?_
  refine (shapeCast_a_1a_apply _ shapeCasts_S64_S1x64 (0 : Fin 1) q).trans ?_
  exact shapeCast_1a_a_apply v shapeCasts_S1x64_S64 q

/-- The first four terms: the zero word's value, relation 0's self product, neighbour product and bias, then
    relation 1's self product, added in that order. -/
theorem first_terms_apply (v0 : Vec Ideal S1000x128 .f32) (v4 v7 : Vec Ideal S1x128x64 .f32) (v10 : Vec Ideal S1x1000x128 .f32)
    (v17 : Vec Ideal S1x64 .f32) (v22 : Vec Ideal S1x128x64 .f32) (p : Fin 1000) (q : Fin 64) :
    k1_pay4 v0 v4 v7 v10 v17 v22 (ix2 p q) =
      (((z32 + ∑ k : Fin 128, v0 (ix2 p k) * v4 (ix3 (0 : Fin 1) k q))
        + ∑ k : Fin 128, v10 (ix3 (0 : Fin 1) p k) * v7 (ix3 (0 : Fin 1) k q)) + v17 (ix2 (0 : Fin 1) q))
        + ∑ k : Fin 128, v0 (ix2 p k) * v22 (ix3 (0 : Fin 1) k q) := by
  unfold k1_pay4
  simp only [addf_apply, product_apply, truncf_apply, broadcast_apply, shapeCast_self,
    shapeCast_1ab_ab_apply]
  rw [bias_row_apply v17 p q]
  rfl

/-- The stored value: the first four terms, then relation 1's neighbour product and bias. -/
theorem last_terms_apply (v27 : FVec Ideal S128x64 .bf16) (v30 : FVec Ideal S1000x128 .bf16) (v32 : FVec Ideal S1000x64 .f32)
    (v35 : Vec Ideal S1x64 .f32) (p : Fin 1000) (q : Fin 64) :
    k1_pay1 v27 v30 v32 v35 (ix2 p q) =
      (v32 (ix2 p q) + ∑ k : Fin 128, v30 (ix2 p k) * v27 (ix2 k q)) + v35 (ix2 (0 : Fin 1) q) := by
  unfold k1_pay1
  simp only [addf_apply, product_apply]
  rw [bias_row_apply v35 p q]

theorem nbr_weights1_apply (v25 : Vec Ideal S1x128x64 .f32) (k : Fin 128) (q : Fin 64) :
    k1_pay2 v25 (ix2 k q) = v25 (ix3 (0 : Fin 1) k q) := by
  unfold k1_pay2
  simp only [truncf_apply, shapeCast_1ab_ab_apply]

theorem means1_apply (v28 : Vec Ideal S1x1000x128 .f32) (p : Fin 1000) (k : Fin 128) :
    k1_pay3 v28 (ix2 p k) = v28 (ix3 (0 : Fin 1) p k) := by
  unfold k1_pay3
  simp only [truncf_apply, shapeCast_1ab_ab_apply]

/-! ## The loads: each reads its buffer where its rectangle says -/

theorem load_features (x : Vec Ideal S1000x128 .f32) (p : Fin 1000) (k : Fin 128) :
    View.ld x r1_0 (ix2 p k) = x (ix2 p k) :=
  congrArg x (funext fun a => Fin.ext (by
    match a with
    | ⟨0, _⟩ => show 0 + 1 * p.val = p.val; omega
    | ⟨1, _⟩ => show 0 + 1 * k.val = k.val; omega))

theorem load_weights0 (x : Vec Ideal S2x128x64 .f32) (k : Fin 128) (q : Fin 64) :
    View.ld x r1_1 (ix3 (0 : Fin 1) k q) = x (ix3 (0 : Fin 2) k q) :=
  congrArg x (funext fun a => Fin.ext (by
    match a with
    | ⟨0, _⟩ => rfl
    | ⟨1, _⟩ => show 0 + 1 * k.val = k.val; omega
    | ⟨2, _⟩ => show 0 + 1 * q.val = q.val; omega))

theorem load_means0 (x : Vec Ideal S2x1000x128 .f32) (p : Fin 1000) (k : Fin 128) :
    View.ld x r1_2 (ix3 (0 : Fin 1) p k) = x (ix3 (0 : Fin 2) p k) :=
  congrArg x (funext fun a => Fin.ext (by
    match a with
    | ⟨0, _⟩ => rfl
    | ⟨1, _⟩ => show 0 + 1 * p.val = p.val; omega
    | ⟨2, _⟩ => show 0 + 1 * k.val = k.val; omega))

theorem load_bias0 (x : Vec Ideal S2x64 .f32) (q : Fin 64) :
    View.ld x r1_3 (ix2 (0 : Fin 1) q) = x (ix2 (0 : Fin 2) q) :=
  congrArg x (funext fun a => Fin.ext (by
    match a with
    | ⟨0, _⟩ => rfl
    | ⟨1, _⟩ => show 0 + 1 * q.val = q.val; omega))

theorem load_weights1 (x : Vec Ideal S2x128x64 .f32) (k : Fin 128) (q : Fin 64) :
    View.ld x r1_4 (ix3 (0 : Fin 1) k q) = x (ix3 (1 : Fin 2) k q) :=
  congrArg x (funext fun a => Fin.ext (by
    match a with
    | ⟨0, _⟩ => rfl
    | ⟨1, _⟩ => show 0 + 1 * k.val = k.val; omega
    | ⟨2, _⟩ => show 0 + 1 * q.val = q.val; omega))

theorem load_means1 (x : Vec Ideal S2x1000x128 .f32) (p : Fin 1000) (k : Fin 128) :
    View.ld x r1_5 (ix3 (0 : Fin 1) p k) = x (ix3 (1 : Fin 2) p k) :=
  congrArg x (funext fun a => Fin.ext (by
    match a with
    | ⟨0, _⟩ => rfl
    | ⟨1, _⟩ => show 0 + 1 * p.val = p.val; omega
    | ⟨2, _⟩ => show 0 + 1 * k.val = k.val; omega))

theorem load_bias1 (x : Vec Ideal S2x64 .f32) (q : Fin 64) :
    View.ld x r1_6 (ix2 (0 : Fin 1) q) = x (ix2 (1 : Fin 2) q) :=
  congrArg x (funext fun a => Fin.ext (by
    match a with
    | ⟨0, _⟩ => rfl
    | ⟨1, _⟩ => show 0 + 1 * q.val = q.val; omega))

/-- What the body stores, at (p, q), as the specification's formula of the six staged blocks. -/
theorem stored_apply (x0 : Vec Ideal S1000x128 .f32) (x1 : Vec Ideal S2x1000x128 .f32) (x2 x3 : Vec Ideal S2x128x64 .f32)
    (x4 : Vec Ideal S2x64 .f32) (p : Fin 1000) (q : Fin 64) :
    k1_pay1 (k1_pay2 (View.ld x3 r1_4)) (k1_pay3 (View.ld x1 r1_5))
        (k1_pay4 (View.ld x0 r1_0) (View.ld x2 r1_1) (View.ld x3 r1_1) (View.ld x1 r1_2) (View.ld x4 r1_3) (View.ld x2 r1_4))
        (View.ld x4 r1_6) (ix2 p q)
      = (((((z32 + ∑ k : Fin 128, x0 (ix2 p k) * x2 (ix3 (0 : Fin 2) k q))
          + ∑ k : Fin 128, x1 (ix3 (0 : Fin 2) p k) * x3 (ix3 (0 : Fin 2) k q)) + x4 (ix2 (0 : Fin 2) q))
          + ∑ k : Fin 128, x0 (ix2 p k) * x2 (ix3 (1 : Fin 2) k q))
          + ∑ k : Fin 128, x1 (ix3 (1 : Fin 2) p k) * x3 (ix3 (1 : Fin 2) k q)) + x4 (ix2 (1 : Fin 2) q) := by
  refine (last_terms_apply _ _ _ _ p q).trans ?_
  rw [first_terms_apply]
  simp only [nbr_weights1_apply, means1_apply]
  exact congrArg₂ (· + ·) (congrArg₂ (· + ·) (congrArg₂ (· + ·) (congrArg₂ (· + ·) (congrArg₂ (· + ·) (congrArg (z32 + ·)
      (Finset.sum_congr rfl fun k _ => congrArg₂ (· * ·) (load_features x0 p k) (load_weights0 x2 k q)))
      (Finset.sum_congr rfl fun k _ => congrArg₂ (· * ·) (load_means0 x1 p k) (load_weights0 x3 k q)))
      (load_bias0 x4 q))
      (Finset.sum_congr rfl fun k _ => congrArg₂ (· * ·) (load_features x0 p k) (load_weights1 x2 k q)))
      (Finset.sum_congr rfl fun k _ => congrArg₂ (· * ·) (load_means1 x1 p k) (load_weights1 x3 k q)))
      (load_bias1 x4 q)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The second layer's output before activation, as one array over the node and output-feature coordinates. -/
abbrev layer2Out (c : Dev nD) : S50000x64.Idx → EReal :=
  unc2 (layerPre (N := 50000) (O := 64) (cur2 (V c main_v49 : S50000x128.Idx → EReal))
    (fun a k => (V c main_v98 : S2x50000x128.Idx → EReal) (ix3 (0 : Fin 2) a k))
    (fun a k => (V c main_v98 : S2x50000x128.Idx → EReal) (ix3 (1 : Fin 2) a k))
    (cur3 (V c main_arg7 : S2x128x64.Idx → EReal)) (cur3 (V c main_arg6 : S2x128x64.Idx → EReal))
    (cur2 (V c main_arg8 : S2x64.Idx → EReal)))

/-- The index maps over the grid: the feature rows, the stacked means and the output move with the point along
    the node axis; the weights and the bias stay at block 0. -/
theorem block_indices : ∀ t : Fin cfg1.N,
    win1_0.index t (0 : Fin 2) = t.val ∧ win1_0.index t (1 : Fin 2) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block at point t is rows 1000 t … 1000 t + 999 of the feature array. -/
theorem feature_block_apply (c : Dev nD) (t : Fin cfg1.N) (p : Fin 1000) (k : Fin 128) (i : Fin 50000)
    (hi : i.val = t.val * 1000 + p.val) :
    (iblk1 V c 0 t : Vec Ideal S1000x128 .f32) (ix2 p k) = (V c main_v49 : S50000x128.Idx → EReal) (ix2 i k) := by
  obtain ⟨e0, e1, -⟩ := block_indices t
  unfold iblk1
  rw [View.read_apply]
  show (V c main_v49 : S50000x128.Idx → EReal) _ = _
  refine congrArg (V c main_v49 : S50000x128.Idx → EReal) (funext fun a => Fin.ext ?_)
  match a with
  | ⟨0, _⟩ => show win1_0.index t (0 : Fin 2) * 1000 + 1 * p.val = i.val; rw [e0, hi]; omega
  | ⟨1, _⟩ => show win1_0.index t (1 : Fin 2) * 128 + 1 * k.val = k.val; rw [e1]; omega

/-- The stacked-means block at point t is, in each relation, rows 1000 t … 1000 t + 999 of that relation's means. -/
theorem means_block_apply (c : Dev nD) (t : Fin cfg1.N) (r : Fin 2) (p : Fin 1000) (k : Fin 128) (i : Fin 50000)
    (hi : i.val = t.val * 1000 + p.val) :
    (iblk1 V c 1 t : Vec Ideal S2x1000x128 .f32) (ix3 r p k) = (V c main_v98 : S2x50000x128.Idx → EReal) (ix3 r i k) := by
  obtain ⟨-, -, e2, e3, e4, -⟩ := block_indices t
  unfold iblk1
  rw [View.read_apply]
  show (V c main_v98 : S2x50000x128.Idx → EReal) _ = _
  refine congrArg (V c main_v98 : S2x50000x128.Idx → EReal) (funext fun a => Fin.ext ?_)
  match a with
  | ⟨0, _⟩ => show win1_1.index t (0 : Fin 3) * 2 + 1 * r.val = r.val; rw [e2]; omega
  | ⟨1, _⟩ => show win1_1.index t (1 : Fin 3) * 1000 + 1 * p.val = i.val; rw [e3, hi]; omega
  | ⟨2, _⟩ => show win1_1.index t (2 : Fin 3) * 128 + 1 * k.val = k.val; rw [e4]; omega

/-- The self-weights block is the whole self-weights array at every point. -/
theorem self_weights_block_apply (c : Dev nD) (t : Fin cfg1.N) (r : Fin 2) (k : Fin 128) (q : Fin 64) :
    (iblk1 V c 2 t : Vec Ideal S2x128x64 .f32) (ix3 r k q) = (V c main_arg7 : S2x128x64.Idx → EReal) (ix3 r k q) := by
  obtain ⟨-, -, -, -, -, e5, e6, e7, -⟩ := block_indices t
  unfold iblk1
  rw [View.read_apply]
  show (V c main_arg7 : S2x128x64.Idx → EReal) _ = _
  refine congrArg (V c main_arg7 : S2x128x64.Idx → EReal) (funext fun a => Fin.ext ?_)
  match a with
  | ⟨0, _⟩ => show win1_2.index t (0 : Fin 3) * 2 + 1 * r.val = r.val; rw [e5]; omega
  | ⟨1, _⟩ => show win1_2.index t (1 : Fin 3) * 128 + 1 * k.val = k.val; rw [e6]; omega
  | ⟨2, _⟩ => show win1_2.index t (2 : Fin 3) * 64 + 1 * q.val = q.val; rw [e7]; omega

/-- The neighbour-weights block is the whole neighbour-weights array at every point. -/
theorem nbr_weights_block_apply (c : Dev nD) (t : Fin cfg1.N) (r : Fin 2) (k : Fin 128) (q : Fin 64) :
    (iblk1 V c 3 t : Vec Ideal S2x128x64 .f32) (ix3 r k q) = (V c main_arg6 : S2x128x64.Idx → EReal) (ix3 r k q) := by
  obtain ⟨-, -, -, -, -, -, -, -, e8, e9, e10, -⟩ := block_indices t
  unfold iblk1
  rw [View.read_apply]
  show (V c main_arg6 : S2x128x64.Idx → EReal) _ = _
  refine congrArg (V c main_arg6 : S2x128x64.Idx → EReal) (funext fun a => Fin.ext ?_)
  match a with
  | ⟨0, _⟩ => show win1_3.index t (0 : Fin 3) * 2 + 1 * r.val = r.val; rw [e8]; omega
  | ⟨1, _⟩ => show win1_3.index t (1 : Fin 3) * 128 + 1 * k.val = k.val; rw [e9]; omega
  | ⟨2, _⟩ => show win1_3.index t (2 : Fin 3) * 64 + 1 * q.val = q.val; rw [e10]; omega

/-- The bias block is the whole bias array at every point. -/
theorem bias_block_apply (c : Dev nD) (t : Fin cfg1.N) (r : Fin 2) (q : Fin 64) :
    (iblk1 V c 4 t : Vec Ideal S2x64 .f32) (ix2 r q) = (V c main_arg8 : S2x64.Idx → EReal) (ix2 r q) := by
  obtain ⟨-, -, -, -, -, -, -, -, -, -, -, e11, e12, -⟩ := block_indices t
  unfold iblk1
  rw [View.read_apply]
  show (V c main_arg8 : S2x64.Idx → EReal) _ = _
  refine congrArg (V c main_arg8 : S2x64.Idx → EReal) (funext fun a => Fin.ext ?_)
  match a with
  | ⟨0, _⟩ => show win1_4.index t (0 : Fin 2) * 2 + 1 * r.val = r.val; rw [e11]; omega
  | ⟨1, _⟩ => show win1_4.index t (1 : Fin 2) * 64 + 1 * q.val = q.val; rw [e12]; omega

/-- What point t stores at (p, q) of its output block is the layer's output at node 1000 t + p and feature q. -/
theorem stored_eq_out (c : Dev nD) (t : Fin cfg1.N) (j : S1000x64.Idx) :
    k1_pay1 (k1_pay2 (View.ld (iblk1 V c 3 t : Vec Ideal S2x128x64 .f32) r1_4)) (k1_pay3 (View.ld (iblk1 V c 1 t : Vec Ideal S2x1000x128 .f32) r1_5))
        (k1_pay4 (View.ld (iblk1 V c 0 t : Vec Ideal S1000x128 .f32) r1_0) (View.ld (iblk1 V c 2 t : Vec Ideal S2x128x64 .f32) r1_1)
          (View.ld (iblk1 V c 3 t : Vec Ideal S2x128x64 .f32) r1_1) (View.ld (iblk1 V c 1 t : Vec Ideal S2x1000x128 .f32) r1_2)
          (View.ld (iblk1 V c 4 t : Vec Ideal S2x64 .f32) r1_3) (View.ld (iblk1 V c 2 t : Vec Ideal S2x128x64 .f32) r1_4))
        (View.ld (iblk1 V c 4 t : Vec Ideal S2x64 .f32) r1_6) j
      = layer2Out V c (((cfg1.win 5).blk t).view.emb j) := by
  obtain ⟨p, q, rfl⟩ : ∃ (p : Fin 1000) (q : Fin 64), j = ix2 p q := ⟨j 0, j 1, eq_ix2 j⟩
  have hN : grid1.N = 50 := N_1
  have ht : t.val < 50 := hN ▸ t.isLt
  obtain ⟨i, hi⟩ : ∃ i : Fin 50000, i.val = t.val * 1000 + p.val :=
    ⟨⟨t.val * 1000 + p.val, by have := p.isLt; omega⟩, rfl⟩
  obtain ⟨-, -, -, -, -, -, -, -, -, -, -, -, -, e13, e14⟩ := block_indices t
  have hemb : ((cfg1.win 5).blk t).view.emb (ix2 p q) = (ix2 i q : S50000x64.Idx) := funext fun a => Fin.ext (by
    match a with
    | ⟨0, _⟩ => show win1_5.index t (0 : Fin 2) * 1000 + 1 * p.val = i.val; rw [e13, hi]; omega
    | ⟨1, _⟩ => show win1_5.index t (1 : Fin 2) * 64 + 1 * q.val = q.val; rw [e14]; omega)
  refine (stored_apply _ _ _ _ _ p q).trans ?_
  refine Eq.trans ?_ (congrArg (layer2Out V c) hemb.symm)
  show _ = layerPre (N := 50000) (O := 64) (cur2 (V c main_v49 : S50000x128.Idx → EReal))
    (fun a k => (V c main_v98 : S2x50000x128.Idx → EReal) (ix3 (0 : Fin 2) a k))
    (fun a k => (V c main_v98 : S2x50000x128.Idx → EReal) (ix3 (1 : Fin 2) a k))
    (cur3 (V c main_arg7 : S2x128x64.Idx → EReal)) (cur3 (V c main_arg6 : S2x128x64.Idx → EReal))
    (cur2 (V c main_arg8 : S2x64.Idx → EReal)) i q
  unfold layerPre
  exact congrArg₂ (· + ·) (congrArg₂ (· + ·) (congrArg₂ (· + ·) (congrArg₂ (· + ·) (congrArg₂ (· + ·) (congrArg (z32 + ·)
      (Finset.sum_congr rfl fun k _ => congrArg₂ (· * ·) (feature_block_apply V c t p k i hi) (self_weights_block_apply V c t 0 k q)))
      (Finset.sum_congr rfl fun k _ => congrArg₂ (· * ·) (means_block_apply V c t 0 p k i hi) (nbr_weights_block_apply V c t 0 k q)))
      (bias_block_apply V c t 0 q))
      (Finset.sum_congr rfl fun k _ => congrArg₂ (· * ·) (feature_block_apply V c t p k i hi) (self_weights_block_apply V c t 1 k q)))
      (Finset.sum_congr rfl fun k _ => congrArg₂ (· * ·) (means_block_apply V c t 1 p k i hi) (nbr_weights_block_apply V c t 1 k q)))
      (bias_block_apply V c t 1 q)

/-- What point t writes back is block t of the layer's output. -/
theorem written_back_eq (c : Dev nD) (t : Fin cfg1.N) :
    (dat1 (F := Ideal) V c).flushed 5 t = ((cfg1.win 5).blk t).view.read (Elt Ideal) (layer2Out V c) := by
  show (cfg1.win 5).cut (grid1.coords t) ((dat1 (F := Ideal) V c).after 5 t) = _
  rw [after1_5]
  unfold out1_5
  rw [View.canon_unit_zero zero_offsets]
  funext j
  exact stored_eq_out V c t j

/-- An index of the output array is in point t's block iff each coordinate is in the block's range on its axis. -/
theorem mem_block_iff (t : Fin cfg1.N) (i : S50000x64.Idx) :
    i ∈ ((cfg1.win 5).blk t).view.set ↔ ∀ a : Fin 2, win1_5.index t a * S1000x64.size a ≤ (i a).val ∧ (i a).val < win1_5.index t a * S1000x64.size a + S1000x64.size a := by
  show i ∈ ((View.whole main_v99).slice (win1_5.rect t)).set ↔ _
  rw [View.set_slice_whole, Rect.mem_set_unit]
  exact Iff.rfl

/-- Every index of the output array is in the block of the point its row falls in: row r in point r / 1000. -/
theorem rows_covered (i : S50000x64.Idx) :
    ∃ t : Fin cfg1.N, (cfg1.win 5).flush t = true ∧ i ∈ ((cfg1.win 5).blk t).view.set := by
  have hN : grid1.N = 50 := N_1
  have hi0 : (i 0).val < 50000 := (i 0).isLt
  have hi1 : (i 1).val < 64 := (i 1).isLt
  obtain ⟨t, ht⟩ : ∃ t : Fin cfg1.N, t.val = (i 0).val / 1000 :=
    ⟨⟨(i 0).val / 1000, by show (i 0).val / 1000 < grid1.N; rw [hN]; omega⟩, rfl⟩
  obtain ⟨-, -, -, -, -, -, -, -, -, -, -, -, -, e13, e14⟩ := block_indices t
  refine ⟨t, flush1_5 t, ?_⟩
  rw [mem_block_iff]
  intro a
  match a with
  | ⟨0, _⟩ => show win1_5.index t (0 : Fin 2) * 1000 ≤ (i 0).val ∧ (i 0).val < win1_5.index t (0 : Fin 2) * 1000 + 1000; rw [e13, ht]; omega
  | ⟨1, _⟩ => show win1_5.index t (1 : Fin 2) * 64 ≤ (i 1).val ∧ (i 1).val < win1_5.index t (1 : Fin 2) * 64 + 64; rw [e14]; omega

/-- The output array after the region: the second layer before activation, of the arrays the region found. -/
theorem final1 (c : Dev nD) :
    (dat1 (F := Ideal) V c).arrAt 5 cfg1.N =
      unc2 (layerPre (N := 50000) (O := 64) (cur2 (V c main_v49 : S50000x128.Idx → EReal))
        (fun a k => (V c main_v98 : S2x50000x128.Idx → EReal) (ix3 (0 : Fin 2) a k))
        (fun a k => (V c main_v98 : S2x50000x128.Idx → EReal) (ix3 (1 : Fin 2) a k))
        (cur3 (V c main_arg7 : S2x128x64.Idx → EReal)) (cur3 (V c main_arg6 : S2x128x64.Idx → EReal))
        (cur2 (V c main_arg8 : S2x64.Idx → EReal))) :=
  (dat1 (F := Ideal) V c).arrAt_eq_of_cover 5 (layer2Out V c) (fun t _ => written_back_eq V c t) rows_covered

end Cert.Sage.L2
end
-- ==== Proof.KScore.lean ====
/-
  The edge-scoring region, read as mathematics.

  The region walks a grid of 200 points. Point `t` takes rows `8000 t … 8000 t + 7999` of the two endpoint-feature
  arrays (1600000 × 64 each), multiplies the two blocks entry by entry, sums each row's 64 products from the zero word's
  value, and writes the 8000 sums as a column to rows `8000 t … 8000 t + 7999` of the 1600000 × 1 score array.

  Here: the body's value at an entry of its block as the specification's `rowDot` of the two loaded blocks
  (`rowSum_apply`, `column_apply`, `pay_apply`); each input block as rows of its array (`blk0_apply`, `blk1_apply`);
  what a point writes back as that point's block of ONE function of the two arrays, `scores` (`pay_scores`,
  `flushed_eq`); the blocks cover the score array, row `r` lying in block `r / 8000` (`mem_blk`, `covered`); so the
  array ends holding `scores` (`final2`). Everything is stated at an arbitrary contents `V` of the buffers at the
  region's entry.
-/
import proofs.«166113_j68092411510980_1_alg».proof.Proof.Gen.KernelIdeal.Frame
import proofs.«166113_j68092411510980_1_alg».proof.Proof.Spec
import Idealize.ShloMosaic.Lib.Pipeline.Value

noncomputable section
open Idealize.ShloMosaic Idealize.ShloMosaic.TcCoe Idealize.SL.Sem Idealize.ShloMosaic.ValueIdx
open Idealize.ShloMosaic.Pipeline (Dat)
open scoped BigOperators

namespace Cert.Sage.Sc
open Cert.KernelIdeal Cert.KernelIdeal.Gen Cert.Sage

/-- A sum over the second axis of an 8000 × 64 block, read at row `r`: the sum of the row's 64 entries (no
    accumulator term: the accumulator is the zero word, the sum's neutral element). -/
theorem rowSum_apply (src : FVec Ideal S8000x64 .f32) (h : S8000x64.Reduces [1] S8000) (hφ : FKind.Formats .f32)
    (hacc : (0x00000000#32 : BitVec 32) = 0x00000000#32) (r : Fin 8000) :
    multiReduction .add [1] S8000 src 0x00000000#32 h hφ hacc (ix1 r) = ∑ k : Fin 64, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- A column of 8000 entries viewed as an 8000 × 1 block reads, at `(r, q)`, entry `r`. -/
theorem column_apply {α : Type} (x : S8000.Idx → α) (h : S8000.ShapeCasts S8000x1) (r : Fin 8000) (q : Fin 1) :
    shapeCast S8000x1 x h (ix2 r q) = x (ix1 r) :=
  shapeCast_apply x h _ _ (by
    have hq : q.val = 0 := by omega
    rw [Shape.rowMajor_val_one, Shape.rowMajor_val_two]
    show r.val = r.val * 1 + q.val
    rw [hq, Nat.mul_one, Nat.add_zero])

/-- The body's value at `(r, q)` of its block: the zero word's value plus the sum over the 64 features of the products
    of the two loaded blocks' entries in row `r`. -/
theorem pay_apply (x0 x1 : Vec Ideal S8000x64 .f32) (r : Fin 8000) (q : Fin 1) :
    k2_pay1 x0 x1 (ix2 r q) = z32 + ∑ k : Fin 64, x0 (ix2 r k) * x1 (ix2 r k) := by
  unfold k2_pay1
  refine (column_apply _ _ r q).trans ?_
  refine (rowSum_apply _ _ _ _ r).trans ?_
  rw [shapeCast_self, shapeCast_self]
  show _ = Ideal.ofBits .f32 0x00000000#32 + _
  rw [Ideal.ofBits_zero_f32, zero_add]
  rfl

variable (V : (c : Dev nD) → (b : Ref sig .tc) → Buf (Elt Ideal) ((c : Thread nD τ).loc b))

/-- The edge scores as one array: entry `(e, 0)` is the score of edge `e`, from the two endpoint-feature arrays. -/
abbrev scores (c : Dev nD) : S1600000x1.Idx → EReal :=
  unc2 (fun (e : Fin 1600000) (_ : Fin 1) =>
    rowDot (cur2 (V c main_v136 : S1600000x64.Idx → EReal)) (cur2 (V c main_v137 : S1600000x64.Idx → EReal)) e)

theorem zeros2 : (![0, 0] : Fin 2 → Nat) = fun _ => 0 := funext fun a => by fin_cases a <;> rfl

/-- The index maps over the grid: point `t` is at block `(t, 0)` of each of the three arrays. -/
theorem index_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The first input's block at point `t` is rows `8000 t … 8000 t + 7999` of its array. -/
theorem blk0_apply (c : Dev nD) (t : Fin cfg2.N) (p : Fin 8000) (k : Fin 64) (e : Fin 1600000)
    (he : e.val = t.val * 8000 + p.val) :
    (iblk2 V c 0 t : Vec Ideal S8000x64 .f32) (ix2 p k) = (V c main_v136 : S1600000x64.Idx → EReal) (ix2 e k) := by
  obtain ⟨e0, e1, -, -, -, -⟩ := index_at t
  unfold iblk2
  rw [View.read_apply]
  show V c main_v136 _ = V c main_v136 _
  congr 1
  funext a; apply Fin.ext
  match a with
  | ⟨0, _⟩ => show win2_0.index t (0 : Fin 2) * 8000 + 1 * p.val = e.val; rw [e0, he]; omega
  | ⟨1, _⟩ => show win2_0.index t (1 : Fin 2) * 64 + 1 * k.val = k.val; rw [e1]; omega

/-- The second input's block at point `t` is the same rows of its array. -/
theorem blk1_apply (c : Dev nD) (t : Fin cfg2.N) (p : Fin 8000) (k : Fin 64) (e : Fin 1600000)
    (he : e.val = t.val * 8000 + p.val) :
    (iblk2 V c 1 t : Vec Ideal S8000x64 .f32) (ix2 p k) = (V c main_v137 : S1600000x64.Idx → EReal) (ix2 e k) := by
  obtain ⟨-, -, e2, e3, -, -⟩ := index_at t
  unfold iblk2
  rw [View.read_apply]
  show V c main_v137 _ = V c main_v137 _
  congr 1
  funext a; apply Fin.ext
  match a with
  | ⟨0, _⟩ => show win2_1.index t (0 : Fin 2) * 8000 + 1 * p.val = e.val; rw [e2, he]; omega
  | ⟨1, _⟩ => show win2_1.index t (1 : Fin 2) * 64 + 1 * k.val = k.val; rw [e3]; omega

/-- The body's value at an index `j` of its block, computed from two blocks that are rows `8000 t + ·` of the two
    arrays, is the score array's entry at any index `i` whose row is `8000 t +` the row of `j`. -/
theorem pay_scores (c : Dev nD) (t : Fin cfg2.N) (x0 x1 : Vec Ideal S8000x64 .f32)
    (h0 : ∀ (p : Fin 8000) (k : Fin 64) (e : Fin 1600000), e.val = t.val * 8000 + p.val →
      x0 (ix2 p k) = (V c main_v136 : S1600000x64.Idx → EReal) (ix2 e k))
    (h1 : ∀ (p : Fin 8000) (k : Fin 64) (e : Fin 1600000), e.val = t.val * 8000 + p.val →
      x1 (ix2 p k) = (V c main_v137 : S1600000x64.Idx → EReal) (ix2 e k))
    (j : S8000x1.Idx) (i : S1600000x1.Idx) (hi : (i 0).val = t.val * 8000 + (j 0).val) :
    k2_pay1 x0 x1 j = scores V c i := by
  obtain ⟨p, q, rfl⟩ : ∃ (p : Fin 8000) (q : Fin 1), j = ix2 p q := ⟨j 0, j 1, eq_ix2 j⟩
  obtain ⟨e, u, rfl⟩ : ∃ (e : Fin 1600000) (u : Fin 1), i = ix2 e u := ⟨i 0, i 1, eq_ix2 i⟩
  have he : e.val = t.val * 8000 + p.val := hi
  refine (pay_apply x0 x1 p q).trans ?_
  show _ = rowDot (cur2 (V c main_v136 : S1600000x64.Idx → EReal)) (cur2 (V c main_v137 : S1600000x64.Idx → EReal)) e
  unfold rowDot
  refine congrArg (z32 + ·) (Finset.sum_congr rfl fun k _ => ?_)
  rw [h0 p k e he, h1 p k e he]

/-- What point `t` writes back is block `t` of the score array. -/
theorem flushed_eq (c : Dev nD) (t : Fin cfg2.N) :
    (dat2 (F := Ideal) V c).flushed 2 t = ((cfg2.win 2).blk t).view.read (Elt Ideal) (scores V c) := by
  show (cfg2.win 2).cut (grid2.coords t) ((dat2 V c).after 2 t) = _
  rw [after2_2]
  unfold out2_2
  rw [View.canon_unit_zero zeros2]
  simp only [View.ld_unit_zero (S := S8000x64) zeros2]
  obtain ⟨-, -, -, -, e4, -⟩ := index_at t
  funext j
  refine pay_scores V c t _ _ (blk0_apply V c t) (blk1_apply V c t) _ _ ?_
  show win2_2.index t (0 : Fin 2) * 8000 + 1 * (j 0).val = t.val * 8000 + (j 0).val
  rw [e4]; omega

/-- An index of the score array is in point `t`'s block iff each coordinate is in the block's range on its axis. -/
theorem mem_blk (t : Fin cfg2.N) (i : S1600000x1.Idx) :
    i ∈ ((cfg2.win 2).blk t).view.set ↔ ∀ a : Fin 2, win2_2.index t a * S8000x1.size a ≤ (i a).val
      ∧ (i a).val < win2_2.index t a * S8000x1.size a + S8000x1.size a := by
  show i ∈ ((View.whole main_v138).slice (win2_2.rect t)).set ↔ _
  rw [View.set_slice_whole, Rect.mem_set_unit]
  exact Iff.rfl

/-- Every index of the score array is in the block of the point its row falls to: row `r` is in block `r / 8000`. -/
theorem covered (i : S1600000x1.Idx) :
    ∃ t : Fin cfg2.N, (cfg2.win 2).flush t = true ∧ i ∈ ((cfg2.win 2).blk t).view.set := by
  have hi0 : (i 0).val < 1600000 := (i 0).isLt
  have hi1 : (i 1).val < 1 := (i 1).isLt
  have hN : cfg2.N = 200 := N_2
  have ht : (i 0).val / 8000 < cfg2.N := by rw [hN]; omega
  obtain ⟨-, -, -, -, e4, e5⟩ := index_at ⟨(i 0).val / 8000, ht⟩
  refine ⟨⟨(i 0).val / 8000, ht⟩, flush2_2 _, ?_⟩
  rw [mem_blk]
  intro a
  match a with
  | ⟨0, _⟩ =>
    show win2_2.index ⟨(i 0).val / 8000, ht⟩ (0 : Fin 2) * 8000 ≤ (i 0).val
      ∧ (i 0).val < win2_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win2_2.index ⟨(i 0).val / 8000, ht⟩ (1 : Fin 2) * 1 ≤ (i 1).val
      ∧ (i 1).val < win2_2.index ⟨(i 0).val / 8000, ht⟩ (1 : Fin 2) * 1 + 1
    rw [e5]
    omega

/-- The score array after the run: every entry `(e, 0)` is edge `e`'s score. -/
theorem final2 (c : Dev nD) :
    (dat2 (F := Ideal) V c).arrAt 2 cfg2.N =
      unc2 (fun (e : Fin 1600000) (_ : Fin 1) =>
        rowDot (cur2 (V c main_v136 : S1600000x64.Idx → EReal)) (cur2 (V c main_v137 : S1600000x64.Idx → EReal)) e) :=
  (dat2 (F := Ideal) V c).arrAt_eq_of_cover 2 (scores V c) (fun t _ => flushed_eq V c t) covered

end Cert.Sage.Sc
end
-- ==== Proof.KValue.lean ====
/-
  The idealized kernel program's two results as the model's functions of the arguments.

  The buffer contents are followed through @main's seven segments. A host stretch leaves the named host-side functions
  of what it reads; a region leaves, in its output array, the specification's layer (or the row products) of its input
  arrays as the region finds them; an argument is never written, so it is read back at its launch contents at every
  boundary. The stacked means read slab by slab are the two means; the concatenated rows read in the first or the second
  half are the positive pairs' or the negative pairs' rows, so the column of 1600000 scores cut in two is the positive
  scores followed by the negative scores.
-/
import proofs.«166113_j68092411510980_1_alg».proof.Proof.Gen.KernelIdeal.Frame
import proofs.«166113_j68092411510980_1_alg».proof.Proof.KHost
import proofs.«166113_j68092411510980_1_alg».proof.Proof.Layout
import proofs.«166113_j68092411510980_1_alg».proof.Proof.Model
import proofs.«166113_j68092411510980_1_alg».proof.Proof.KLayer1
import proofs.«166113_j68092411510980_1_alg».proof.Proof.KLayer2
import proofs.«166113_j68092411510980_1_alg».proof.Proof.KScore

set_option maxRecDepth 16384

noncomputable section

open scoped BigOperators

namespace Cert.Sage.KValue

open Cert.KernelIdeal Cert.KernelIdeal.Gen Cert.Sage
open Idealize.ShloMosaic Idealize.ShloMosaic.TcCoe Idealize.SL.Sem Idealize.ShloMosaic.StableHlo Idealize.ShloMosaic.ValueIdx
open Idealize.ShloMosaic.Pipeline (Dat)

/-! ## Congruences: a layer of equal operands, the stacked means read by slabs -/

theorem relu_of (Xv X' : HF.Arr S50000x128) (MM : HF.Arr S2x50000x128) (M0 M1 : HF.Arr S50000x128)
    (Ws Ws' Wn Wn' : HF.Arr S2x128x128) (b b' : HF.Arr S2x128)
    (hX : Xv = X') (hMM : MM = HF.stack2 M0 M1) (hWs : Ws = Ws') (hWn : Wn = Wn') (hb : b = b') :
    unc2 (layerRelu (N := 50000) (O := 128) (cur2 (Xv : S50000x128.Idx → EReal))
        (fun a k => (MM : S2x50000x128.Idx → EReal) (ix3 (0 : Fin 2) a k))
        (fun a k => (MM : S2x50000x128.Idx → EReal) (ix3 (1 : Fin 2) a k))
        (cur3 (Ws : S2x128x128.Idx → EReal)) (cur3 (Wn : S2x128x128.Idx → EReal)) (cur2 (b : S2x128.Idx → EReal)))
      = unc2 (layerRelu (N := 50000) (O := 128) (cur2 (X' : S50000x128.Idx → EReal))
        (cur2 (M0 : S50000x128.Idx → EReal)) (cur2 (M1 : S50000x128.Idx → EReal))
        (cur3 (Ws' : S2x128x128.Idx → EReal)) (cur3 (Wn' : S2x128x128.Idx → EReal)) (cur2 (b' : S2x128.Idx → EReal))) := by
  subst hX hMM hWs hWn hb
  have h0 : (fun (a : Fin 50000) (k : Fin 128) => (HF.stack2 M0 M1 : S2x50000x128.Idx → EReal) (ix3 (0 : Fin 2) a k))
      = cur2 (M0 : S50000x128.Idx → EReal) := funext fun a => funext fun k => Lay.stack2_slab0 M0 M1 a k
  have h1 : (fun (a : Fin 50000) (k : Fin 128) => (HF.stack2 M0 M1 : S2x50000x128.Idx → EReal) (ix3 (1 : Fin 2) a k))
      = cur2 (M1 : S50000x128.Idx → EReal) := funext fun a => funext fun k => Lay.stack2_slab1 M0 M1 a k
  rw [h0, h1]

theorem pre_of (Xv X' : HF.Arr S50000x128) (MM : HF.Arr S2x50000x128) (M0 M1 : HF.Arr S50000x128)
    (Ws Ws' Wn Wn' : HF.Arr S2x128x64) (b b' : HF.Arr S2x64)
    (hX : Xv = X') (hMM : MM = HF.stack2 M0 M1) (hWs : Ws = Ws') (hWn : Wn = Wn') (hb : b = b') :
    unc2 (layerPre (N := 50000) (O := 64) (cur2 (Xv : S50000x128.Idx → EReal))
        (fun a k => (MM : S2x50000x128.Idx → EReal) (ix3 (0 : Fin 2) a k))
        (fun a k => (MM : S2x50000x128.Idx → EReal) (ix3 (1 : Fin 2) a k))
        (cur3 (Ws : S2x128x64.Idx → EReal)) (cur3 (Wn : S2x128x64.Idx → EReal)) (cur2 (b : S2x64.Idx → EReal)))
      = unc2 (layerPre (N := 50000) (O := 64) (cur2 (X' : S50000x128.Idx → EReal))
        (cur2 (M0 : S50000x128.Idx → EReal)) (cur2 (M1 : S50000x128.Idx → EReal))
        (cur3 (Ws' : S2x128x64.Idx → EReal)) (cur3 (Wn' : S2x128x64.Idx → EReal)) (cur2 (b' : S2x64.Idx → EReal))) := by
  subst hX hMM hWs hWn hb
  have h0 : (fun (a : Fin 50000) (k : Fin 128) => (HF.stack2 M0 M1 : S2x50000x128.Idx → EReal) (ix3 (0 : Fin 2) a k))
      = cur2 (M0 : S50000x128.Idx → EReal) := funext fun a => funext fun k => Lay.stack2_slab0 M0 M1 a k
  have h1 : (fun (a : Fin 50000) (k : Fin 128) => (HF.stack2 M0 M1 : S2x50000x128.Idx → EReal) (ix3 (1 : Fin 2) a k))
      = cur2 (M1 : S50000x128.Idx → EReal) := funext fun a => funext fun k => Lay.stack2_slab1 M0 M1 a k
  rw [h0, h1]

theorem score_of (A A' B B' : HF.Arr S1600000x64) (hA : A = A') (hB : B = B') :
    unc2 (fun (e : Fin 1600000) (_ : Fin 1) =>
        rowDot (cur2 (A : S1600000x64.Idx → EReal)) (cur2 (B : S1600000x64.Idx → EReal)) e)
      = unc2 (fun (e : Fin 1600000) (_ : Fin 1) =>
        rowDot (cur2 (A' : S1600000x64.Idx → EReal)) (cur2 (B' : S1600000x64.Idx → EReal)) e) := by
  subst hA hB; rfl

/-! ## The column of scores cut in two -/

/-- The first 800000 scores are the row products of the first pieces. -/
theorem tail_pos (A0 A1 B0 B1 : HF.Arr S800000x64) :
    HF.firstHalf (HF.flat (unc2 (fun (e : Fin 1600000) (_ : Fin 1) =>
        rowDot (cur2 (HF.cat2 A0 A1 : S1600000x64.Idx → EReal)) (cur2 (HF.cat2 B0 B1 : S1600000x64.Idx → EReal)) e)))
      = unc1 (rowDot (E := 800000) (cur2 (A0 : S800000x64.Idx → EReal)) (cur2 (B0 : S800000x64.Idx → EReal))) := by
  refine ext1 (n0 := 800000) fun e => ?_
  rw [Lay.firstHalf_apply, Lay.flat_apply, unc2_ix2, unc1_ix1]
  unfold rowDot
  refine congrArg (z32 + ·) (Finset.sum_congr rfl fun k _ => ?_)
  show HF.cat2 A0 A1 (ix2 _ k) * HF.cat2 B0 B1 (ix2 _ k) = A0 (ix2 e k) * B0 (ix2 e k)
  rw [Lay.cat2_fst, Lay.cat2_fst]

/-- The last 800000 scores are the row products of the second pieces. -/
theorem tail_neg (A0 A1 B0 B1 : HF.Arr S800000x64) :
    HF.secondHalf (HF.flat (unc2 (fun (e : Fin 1600000) (_ : Fin 1) =>
        rowDot (cur2 (HF.cat2 A0 A1 : S1600000x64.Idx → EReal)) (cur2 (HF.cat2 B0 B1 : S1600000x64.Idx → EReal)) e)))
      = unc1 (rowDot (E := 800000) (cur2 (A1 : S800000x64.Idx → EReal)) (cur2 (B1 : S800000x64.Idx → EReal))) := by
  refine ext1 (n0 := 800000) fun e => ?_
  rw [Lay.secondHalf_apply, Lay.flat_apply, unc2_ix2, unc1_ix1]
  unfold rowDot
  refine congrArg (z32 + ·) (Finset.sum_congr rfl fun k _ => ?_)
  show HF.cat2 A0 A1 (ix2 _ k) * HF.cat2 B0 B1 (ix2 _ k) = A1 (ix2 e k) * B1 (ix2 e k)
  rw [Lay.cat2_snd, Lay.cat2_snd]

/-! ## The buffer contents at each boundary -/

variable (m : (ℓ : Loc nD τ sig) → Buf (Elt Ideal) ℓ) (ρ : Dev nD → PrngReg) (c : Dev nD)

/-- The first layer's output as the model's function of the arguments' launch contents. -/
abbrev hid : HF.Arr S50000x128 := Model.hidden (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
/-- The second layer's output likewise. -/
abbrev emb : HF.Arr S50000x64 := Model.embed (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

-- after the first stretch the arguments are as launched
theorem W1_arg0 : W1 m ρ c (Proc.devRef .tc main_arg0) = m ((c.tc : Thread nD τ).loc main_arg0) := KHost.host0_keep_main_arg0 (W0 m ρ c)
theorem W1_arg1 : W1 m ρ c (Proc.devRef .tc main_arg1) = m ((c.tc : Thread nD τ).loc main_arg1) := KHost.host0_keep_main_arg1 (W0 m ρ c)
theorem W1_arg2 : W1 m ρ c (Proc.devRef .tc main_arg2) = m ((c.tc : Thread nD τ).loc main_arg2) := KHost.host0_keep_main_arg2 (W0 m ρ c)
theorem W1_arg3 : W1 m ρ c (Proc.devRef .tc main_arg3) = m ((c.tc : Thread nD τ).loc main_arg3) := KHost.host0_keep_main_arg3 (W0 m ρ c)
theorem W1_arg4 : W1 m ρ c (Proc.devRef .tc main_arg4) = m ((c.tc : Thread nD τ).loc main_arg4) := KHost.host0_keep_main_arg4 (W0 m ρ c)
theorem W1_arg5 : W1 m ρ c (Proc.devRef .tc main_arg5) = m ((c.tc : Thread nD τ).loc main_arg5) := KHost.host0_keep_main_arg5 (W0 m ρ c)
theorem W1_arg6 : W1 m ρ c (Proc.devRef .tc main_arg6) = m ((c.tc : Thread nD τ).loc main_arg6) := KHost.host0_keep_main_arg6 (W0 m ρ c)
theorem W1_arg7 : W1 m ρ c (Proc.devRef .tc main_arg7) = m ((c.tc : Thread nD τ).loc main_arg7) := KHost.host0_keep_main_arg7 (W0 m ρ c)
theorem W1_arg8 : W1 m ρ c (Proc.devRef .tc main_arg8) = m ((c.tc : Thread nD τ).loc main_arg8) := KHost.host0_keep_main_arg8 (W0 m ρ c)
theorem W1_v48 : W1 m ρ c (Proc.devRef .tc main_v48) =
    HF.stack2 (HF.meanOf (m ((c.tc : Thread nD τ).loc main_arg0)) (HF.edge00 (m ((c.tc : Thread nD τ).loc main_arg1))) (HF.edge01 (m ((c.tc : Thread nD τ).loc main_arg1))))
      (HF.meanOf (m ((c.tc : Thread nD τ).loc main_arg0)) (HF.edge10 (m ((c.tc : Thread nD τ).loc main_arg1))) (HF.edge11 (m ((c.tc : Thread nD τ).loc main_arg1)))) :=
  KHost.host0_v48 (W0 m ρ c)

-- region 0 leaves the first layer in its output array and touches nothing else
theorem W2_v49 : W2 m ρ c (Proc.devRef .tc main_v49) = hid m c :=
  (W2_arr m ρ c 5).trans ((L1.final0 (V1 m ρ) c).trans
    (relu_of _ _ _ _ _ _ _ _ _ _ _ (W1_arg0 m ρ c) (W1_v48 m ρ c) (W1_arg4 m ρ c) (W1_arg3 m ρ c) (W1_arg5 m ρ c)))
theorem W2_arg1 : W2 m ρ c (Proc.devRef .tc main_arg1) = m ((c.tc : Thread nD τ).loc main_arg1) := (W2_of_ne m ρ c main_arg1 (by decide)).trans (W1_arg1 m ρ c)
theorem W2_arg2 : W2 m ρ c (Proc.devRef .tc main_arg2) = m ((c.tc : Thread nD τ).loc main_arg2) := (W2_of_ne m ρ c main_arg2 (by decide)).trans (W1_arg2 m ρ c)
theorem W2_arg6 : W2 m ρ c (Proc.devRef .tc main_arg6) = m ((c.tc : Thread nD τ).loc main_arg6) := (W2_of_ne m ρ c main_arg6 (by decide)).trans (W1_arg6 m ρ c)
theorem W2_arg7 : W2 m ρ c (Proc.devRef .tc main_arg7) = m ((c.tc : Thread nD τ).loc main_arg7) := (W2_of_ne m ρ c main_arg7 (by decide)).trans (W1_arg7 m ρ c)
theorem W2_arg8 : W2 m ρ c (Proc.devRef .tc main_arg8) = m ((c.tc : Thread nD τ).loc main_arg8) := (W2_of_ne m ρ c main_arg8 (by decide)).trans (W1_arg8 m ρ c)

-- the second stretch
theorem W3_v49 : W3 m ρ c (Proc.devRef .tc main_v49) = hid m c := (KHost.host1_keep_main_v49 (W2 m ρ c)).trans (W2_v49 m ρ c)
theorem W3_arg1 : W3 m ρ c (Proc.devRef .tc main_arg1) = m ((c.tc : Thread nD τ).loc main_arg1) := (KHost.host1_keep_main_arg1 (W2 m ρ c)).trans (W2_arg1 m ρ c)
theorem W3_arg2 : W3 m ρ c (Proc.devRef .tc main_arg2) = m ((c.tc : Thread nD τ).loc main_arg2) := (KHost.host1_keep_main_arg2 (W2 m ρ c)).trans (W2_arg2 m ρ c)
theorem W3_arg6 : W3 m ρ c (Proc.devRef .tc main_arg6) = m ((c.tc : Thread nD τ).loc main_arg6) := (KHost.host1_keep_main_arg6 (W2 m ρ c)).trans (W2_arg6 m ρ c)
theorem W3_arg7 : W3 m ρ c (Proc.devRef .tc main_arg7) = m ((c.tc : Thread nD τ).loc main_arg7) := (KHost.host1_keep_main_arg7 (W2 m ρ c)).trans (W2_arg7 m ρ c)
theorem W3_arg8 : W3 m ρ c (Proc.devRef .tc main_arg8) = m ((c.tc : Thread nD τ).loc main_arg8) := (KHost.host1_keep_main_arg8 (W2 m ρ c)).trans (W2_arg8 m ρ c)
theorem W3_v98 : W3 m ρ c (Proc.devRef .tc main_v98) =
    HF.stack2 (HF.meanOf (hid m c) (HF.edge00 (m ((c.tc : Thread nD τ).loc main_arg1))) (HF.edge01 (m ((c.tc : Thread nD τ).loc main_arg1))))
      (HF.meanOf (hid m c) (HF.edge10 (m ((c.tc : Thread nD τ).loc main_arg1))) (HF.edge11 (m ((c.tc : Thread nD τ).loc main_arg1)))) := by
  refine (KHost.host1_v98 (W2 m ρ c)).trans ?_
  rw [W2_v49 m ρ c, W2_arg1 m ρ c]

-- region 1 leaves the second layer in its output array
theorem W4_v99 : W4 m ρ c (Proc.devRef .tc main_v99) = emb m c :=
  (W4_arr m ρ c 5).trans ((L2.final1 (V3 m ρ) c).trans
    (pre_of _ _ _ _ _ _ _ _ _ _ _ (W3_v49 m ρ c) (W3_v98 m ρ c) (W3_arg7 m ρ c) (W3_arg6 m ρ c) (W3_arg8 m ρ c)))
theorem W4_arg1 : W4 m ρ c (Proc.devRef .tc main_arg1) = m ((c.tc : Thread nD τ).loc main_arg1) := (W4_of_ne m ρ c main_arg1 (by decide)).trans (W3_arg1 m ρ c)
theorem W4_arg2 : W4 m ρ c (Proc.devRef .tc main_arg2) = m ((c.tc : Thread nD τ).loc main_arg2) := (W4_of_ne m ρ c main_arg2 (by decide)).trans (W3_arg2 m ρ c)

-- the third stretch: the endpoints' rows of the second layer's output
theorem W5_v136 : W5 m ρ c (Proc.devRef .tc main_v136) =
    HF.cat2 (HF.takeRows (emb m c) (HF.edge00 (m ((c.tc : Thread nD τ).loc main_arg1)))) (HF.takeRows (emb m c) (HF.negRow0 (m ((c.tc : Thread nD τ).loc main_arg2)))) := by
  refine (KHost.host2_v136 (W4 m ρ c)).trans ?_
  rw [W4_v99 m ρ c, W4_arg1 m ρ c, W4_arg2 m ρ c]
theorem W5_v137 : W5 m ρ c (Proc.devRef .tc main_v137) =
    HF.cat2 (HF.takeRows (emb m c) (HF.edge01 (m ((c.tc : Thread nD τ).loc main_arg1)))) (HF.takeRows (emb m c) (HF.negRow1 (m ((c.tc : Thread nD τ).loc main_arg2)))) := by
  refine (KHost.host2_v137 (W4 m ρ c)).trans ?_
  rw [W4_v99 m ρ c, W4_arg1 m ρ c, W4_arg2 m ρ c]

-- region 2 leaves the row products in its output column
theorem W6_v138 : W6 m ρ c (Proc.devRef .tc main_v138) =
    unc2 (fun (e : Fin 1600000) (_ : Fin 1) =>
      rowDot (cur2 (HF.cat2 (HF.takeRows (emb m c) (HF.edge00 (m ((c.tc : Thread nD τ).loc main_arg1)))) (HF.takeRows (emb m c) (HF.negRow0 (m ((c.tc : Thread nD τ).loc main_arg2)))) : S1600000x64.Idx → EReal))
        (cur2 (HF.cat2 (HF.takeRows (emb m c) (HF.edge01 (m ((c.tc : Thread nD τ).loc main_arg1)))) (HF.takeRows (emb m c) (HF.negRow1 (m ((c.tc : Thread nD τ).loc main_arg2)))) : S1600000x64.Idx → EReal)) e) :=
  (W6_arr m ρ c 2).trans ((Sc.final2 (V5 m ρ) c).trans (score_of _ _ _ _ (W5_v136 m ρ c) (W5_v137 m ρ c)))

/-- THE FIRST RESULT: the scores of relation 0's edges. -/
theorem W7_v140 : W7 m ρ c (Proc.devRef .tc main_v140) =
    Model.posScore (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (KHost.host3_v140 (W6 m ρ c)).trans ?_
  rw [W6_v138 m ρ c]
  exact tail_pos _ _ _ _

/-- THE SECOND RESULT: the scores of the negative pairs. -/
theorem W7_v141 : W7 m ρ c (Proc.devRef .tc main_v141) =
    Model.negScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (KHost.host3_v141 (W6 m ρ c)).trans ?_
  rw [W6_v138 m ρ c]
  exact tail_neg _ _ _ _

end Cert.Sage.KValue

end
-- ==== Proof.RLayer.lean ====
/-
  The reference program's two dense layers are the specification's `layerRelu` and `layerPre`.

  Each layer adds onto the zero array, for relation 0 and then relation 1: the nodes' feature rows times the
  relation's self weights, the mean neighbour rows times the relation's neighbour weights, and the relation's
  bias row. At an entry (i, j) each product is a sum over the 128 input features, a weight slab's entry (k, j) is
  the weight array's entry (r, k, j), and a bias row's entry is the bias array's entry (r, j); the mean neighbour
  features enter as given arrays.
-/
import proofs.«166113_j68092411510980_1_alg».proof.Proof.Gen.ReferenceIdeal.Read
import proofs.«166113_j68092411510980_1_alg».proof.Proof.Spec

noncomputable section
open Idealize.ShloMosaic Idealize.ShloMosaic.ValueIdx
open scoped BigOperators

namespace Cert.Sage.R1
open Cert.ReferenceIdeal Cert.ReferenceIdeal.Read Cert.Sage

variable (x0 : (⟨S50000x128, .f32⟩ : BufTy).Contents (Elt Ideal)) (x1 : (⟨S2x2x800000, .i32⟩ : BufTy).Contents (Elt Ideal))
  (x2 : (⟨S2x800000, .i32⟩ : BufTy).Contents (Elt Ideal))
  (x3 x4 : (⟨S2x128x128, .f32⟩ : BufTy).Contents (Elt Ideal)) (x5 : (⟨S2x128, .f32⟩ : BufTy).Contents (Elt Ideal))
  (x6 x7 : (⟨S2x128x64, .f32⟩ : BufTy).Contents (Elt Ideal)) (x8 : (⟨S2x64, .f32⟩ : BufTy).Contents (Elt Ideal))

/-! ## Layer 1

  The weight slabs, the bias rows and the zero array at an entry; then each of the four products at an entry as a
  sum over the 128 input features; then the six terms in the order the program adds them. -/

/-- The zero array at any entry is the value of the zero word. -/
theorem zero_v0 (q : S50000x128.Idx) : val_main_v0 (F := Ideal) q = z32 := by
  rw [val_main_v0_apply, val_main_cst_apply]; rfl

/-- The cut-off's zero array at any entry is the value of the zero word. -/
theorem zero_relu (q : S50000x128.Idx) : val_main_call0_v0 (F := Ideal) q = z32 := by
  rw [val_main_call0_v0_apply, val_main_call0_cst_apply]; rfl

/-! A relation's slab of a [2,128,128] weight array, read at (k, j), is the array's entry (r, k, j): the slice
    keeps the relation's plane and the reshape drops the unit axis, so the flat position k * 128 + j splits back
    into (k, j). -/

theorem slab0_self1 (w : (⟨S2x128x128, .f32⟩ : BufTy).Contents (Elt Ideal)) (k : Fin 128) (j : Fin 128) :
    val_main_v25 (F := Ideal) w (ix2 k j) = w (ix3 (0 : Fin 2) k j) := by
  rw [val_main_v25_apply, val_main_v24_apply]
  refine congrArg w (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

theorem slab0_nbr1 (w : (⟨S2x128x128, .f32⟩ : BufTy).Contents (Elt Ideal)) (k : Fin 128) (j : Fin 128) :
    val_main_v29 (F := Ideal) w (ix2 k j) = w (ix3 (0 : Fin 2) k j) := by
  rw [val_main_v29_apply, val_main_v28_apply]
  refine congrArg w (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

theorem slab1_self1 (w : (⟨S2x128x128, .f32⟩ : BufTy).Contents (Elt Ideal)) (k : Fin 128) (j : Fin 128) :
    val_main_v61 (F := Ideal) w (ix2 k j) = w (ix3 (1 : Fin 2) k j) := by
  rw [val_main_v61_apply, val_main_v60_apply]
  refine congrArg w (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

theorem slab1_nbr1 (w : (⟨S2x128x128, .f32⟩ : BufTy).Contents (Elt Ideal)) (k : Fin 128) (j : Fin 128) :
    val_main_v65 (F := Ideal) w (ix2 k j) = w (ix3 (1 : Fin 2) k j) := by
  rw [val_main_v65_apply, val_main_v64_apply]
  refine congrArg w (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-! A relation's bias row, broadcast over the nodes: at (i, j) it is the bias array's entry (r, j). -/

theorem bias0_1 (b : (⟨S2x128, .f32⟩ : BufTy).Contents (Elt Ideal)) (i : Fin 50000) (j : Fin 128) :
    val_main_v35 (F := Ideal) b (ix2 i j) = b (ix2 (0 : Fin 2) j) := by
  rw [val_main_v35_apply, val_main_v34_apply, val_main_v33_apply, val_main_v32_apply]
  refine congrArg b (funext fun a => Fin.ext ?_)
  have hj := j.isLt
  match a with
  | ⟨0, _⟩ => rfl
  | ⟨1, _⟩ => show j.val % 128 = j.val; omega

theorem bias1_1 (b : (⟨S2x128, .f32⟩ : BufTy).Contents (Elt Ideal)) (i : Fin 50000) (j : Fin 128) :
    val_main_v71 (F := Ideal) b (ix2 i j) = b (ix2 (1 : Fin 2) j) := by
  rw [val_main_v71_apply, val_main_v70_apply, val_main_v69_apply, val_main_v68_apply]
  refine congrArg b (funext fun a => Fin.ext ?_)
  have hj := j.isLt
  match a with
  | ⟨0, _⟩ => rfl
  | ⟨1, _⟩ => show j.val % 128 = j.val; omega

/-! The four products at (i, j): row i of the left operand against column j of the relation's slab. The mean
    neighbour features enter as given arrays. -/

theorem dot0_self1 (x0 : (⟨S50000x128, .f32⟩ : BufTy).Contents (Elt Ideal)) (x4 : (⟨S2x128x128, .f32⟩ : BufTy).Contents (Elt Ideal)) (i : Fin 50000) (j : Fin 128) :
    val_main_v26 (F := Ideal) x0 x4 (ix2 i j) = ∑ k : Fin 128, x0 (ix2 i k) * x4 (ix3 (0 : Fin 2) k j) := by
  rw [val_main_v26_apply]
  refine Finset.sum_congr rfl fun k _ => ?_
  rw [show lidx_main_v26 (ix2 i j) k = ix2 i k from
        funext fun a => by match a with | ⟨0, _⟩ => rfl | ⟨1, _⟩ => rfl,
      show ridx_main_v26 (ix2 i j) k = ix2 k j from
        funext fun a => by match a with | ⟨0, _⟩ => rfl | ⟨1, _⟩ => rfl,
      slab0_self1]

theorem dot0_nbr1 (x0 : (⟨S50000x128, .f32⟩ : BufTy).Contents (Elt Ideal)) (x1 : (⟨S2x2x800000, .i32⟩ : BufTy).Contents (Elt Ideal)) (x3 : (⟨S2x128x128, .f32⟩ : BufTy).Contents (Elt Ideal)) (i : Fin 50000) (j : Fin 128) :
    val_main_v30 (F := Ideal) x0 x1 x3 (ix2 i j) = ∑ k : Fin 128, val_main_v23 (F := Ideal) x0 x1 (ix2 i k) * x3 (ix3 (0 : Fin 2) k j) := by
  rw [val_main_v30_apply]
  generalize val_main_v23 (F := Ideal) x0 x1 = m
  refine Finset.sum_congr rfl fun k _ => ?_
  rw [show lidx_main_v30 (ix2 i j) k = ix2 i k from
        funext fun a => by match a with | ⟨0, _⟩ => rfl | ⟨1, _⟩ => rfl,
      show ridx_main_v30 (ix2 i j) k = ix2 k j from
        funext fun a => by match a with | ⟨0, _⟩ => rfl | ⟨1, _⟩ => rfl,
      slab0_nbr1]

theorem dot1_self1 (x0 : (⟨S50000x128, .f32⟩ : BufTy).Contents (Elt Ideal)) (x4 : (⟨S2x128x128, .f32⟩ : BufTy).Contents (Elt Ideal)) (i : Fin 50000) (j : Fin 128) :
    val_main_v62 (F := Ideal) x0 x4 (ix2 i j) = ∑ k : Fin 128, x0 (ix2 i k) * x4 (ix3 (1 : Fin 2) k j) := by
  rw [val_main_v62_apply]
  refine Finset.sum_congr rfl fun k _ => ?_
  rw [show lidx_main_v62 (ix2 i j) k = ix2 i k from
        funext fun a => by match a with | ⟨0, _⟩ => rfl | ⟨1, _⟩ => rfl,
      show ridx_main_v62 (ix2 i j) k = ix2 k j from
        funext fun a => by match a with | ⟨0, _⟩ => rfl | ⟨1, _⟩ => rfl,
      slab1_self1]

theorem dot1_nbr1 (x0 : (⟨S50000x128, .f32⟩ : BufTy).Contents (Elt Ideal)) (x1 : (⟨S2x2x800000, .i32⟩ : BufTy).Contents (Elt Ideal)) (x3 : (⟨S2x128x128, .f32⟩ : BufTy).Contents (Elt Ideal)) (i : Fin 50000) (j : Fin 128) :
    val_main_v66 (F := Ideal) x0 x1 x3 (ix2 i j) = ∑ k : Fin 128, val_main_v59 (F := Ideal) x0 x1 (ix2 i k) * x3 (ix3 (1 : Fin 2) k j) := by
  rw [val_main_v66_apply]
  generalize val_main_v59 (F := Ideal) x0 x1 = m
  refine Finset.sum_congr rfl fun k _ => ?_
  rw [show lidx_main_v66 (ix2 i j) k = ix2 i k from
        funext fun a => by match a with | ⟨0, _⟩ => rfl | ⟨1, _⟩ => rfl,
      show ridx_main_v66 (ix2 i j) k = ix2 k j from
        funext fun a => by match a with | ⟨0, _⟩ => rfl | ⟨1, _⟩ => rfl,
      slab1_nbr1]

set_option maxHeartbeats 400000 in
/-- The first layer's output is the specification's: the six terms are added in the program's order onto the zero
    word's value and the result is cut off below at the zero word's value. -/
theorem ref_layer1 :
    val_main_v73 (F := Ideal) x0 x1 x3 x4 x5 =
      unc2 (layerRelu (N := 50000) (O := 128) (cur2 (x0 : S50000x128.Idx → EReal))
        (cur2 (val_main_v23 (F := Ideal) x0 x1 : S50000x128.Idx → EReal))
        (cur2 (val_main_v59 (F := Ideal) x0 x1 : S50000x128.Idx → EReal))
        (cur3 (x4 : S2x128x128.Idx → EReal)) (cur3 (x3 : S2x128x128.Idx → EReal)) (cur2 (x5 : S2x128.Idx → EReal))) := by
  refine ext2 fun i j => ?_
  rw [unc2_ix2, val_main_v73_apply, val_main_v72_apply, val_main_v67_apply, val_main_v63_apply, val_main_v36_apply,
    val_main_v31_apply, val_main_v27_apply, zero_v0, zero_relu, dot0_self1, dot0_nbr1, bias0_1, dot1_self1, dot1_nbr1,
    bias1_1]
  generalize val_main_v23 (F := Ideal) x0 x1 = m0
  generalize val_main_v59 (F := Ideal) x0 x1 = m1
  rfl

/-! ## Layer 2

  The same six terms over the first layer's output, with 64 output features and no cut-off. The first layer's
  output and the two mean neighbour arrays enter as given arrays. -/

/-- The second layer's zero array at any entry is the value of the zero word. -/
theorem zero_v74 (q : S50000x64.Idx) : val_main_v74 (F := Ideal) q = z32 := by
  rw [val_main_v74_apply, val_main_cst_11_apply]; rfl

/-! A relation's slab of a [2,128,64] weight array, read at (k, j), is the array's entry (r, k, j): the flat
    position k * 64 + j splits back into (k, j). -/

theorem slab0_self2 (w : (⟨S2x128x64, .f32⟩ : BufTy).Contents (Elt Ideal)) (k : Fin 128) (j : Fin 64) :
    val_main_v99 (F := Ideal) w (ix2 k j) = w (ix3 (0 : Fin 2) k j) := by
  rw [val_main_v99_apply, val_main_v98_apply]
  refine congrArg w (funext fun a => Fin.ext ?_)
  have hk := k.isLt; have hj := j.isLt
  match a with
  | ⟨0, _⟩ => rfl
  | ⟨1, _⟩ => show (k.val * 64 + j.val) / 64 % 128 = k.val; omega
  | ⟨2, _⟩ => show (k.val * 64 + j.val) % 64 = j.val; omega

theorem slab0_nbr2 (w : (⟨S2x128x64, .f32⟩ : BufTy).Contents (Elt Ideal)) (k : Fin 128) (j : Fin 64) :
    val_main_v103 (F := Ideal) w (ix2 k j) = w (ix3 (0 : Fin 2) k j) := by
  rw [val_main_v103_apply, val_main_v102_apply]
  refine congrArg w (funext fun a => Fin.ext ?_)
  have hk := k.isLt; have hj := j.isLt
  match a with
  | ⟨0, _⟩ => rfl
  | ⟨1, _⟩ => show (k.val * 64 + j.val) / 64 % 128 = k.val; omega
  | ⟨2, _⟩ => show (k.val * 64 + j.val) % 64 = j.val; omega

theorem slab1_self2 (w : (⟨S2x128x64, .f32⟩ : BufTy).Contents (Elt Ideal)) (k : Fin 128) (j : Fin 64) :
    val_main_v135 (F := Ideal) w (ix2 k j) = w (ix3 (1 : Fin 2) k j) := by
  rw [val_main_v135_apply, val_main_v134_apply]
  refine congrArg w (funext fun a => Fin.ext ?_)
  have hk := k.isLt; have hj := j.isLt
  match a with
  | ⟨0, _⟩ => rfl
  | ⟨1, _⟩ => show (k.val * 64 + j.val) / 64 % 128 = k.val; omega
  | ⟨2, _⟩ => show (k.val * 64 + j.val) % 64 = j.val; omega

theorem slab1_nbr2 (w : (⟨S2x128x64, .f32⟩ : BufTy).Contents (Elt Ideal)) (k : Fin 128) (j : Fin 64) :
    val_main_v139 (F := Ideal) w (ix2 k j) = w (ix3 (1 : Fin 2) k j) := by
  rw [val_main_v139_apply, val_main_v138_apply]
  refine congrArg w (funext fun a => Fin.ext ?_)
  have hk := k.isLt; have hj := j.isLt
  match a with
  | ⟨0, _⟩ => rfl
  | ⟨1, _⟩ => show (k.val * 64 + j.val) / 64 % 128 = k.val; omega
  | ⟨2, _⟩ => show (k.val * 64 + j.val) % 64 = j.val; omega

/-! A relation's bias row, broadcast over the nodes: at (i, j) it is the bias array's entry (r, j). -/

theorem bias0_2 (b : (⟨S2x64, .f32⟩ : BufTy).Contents (Elt Ideal)) (i : Fin 50000) (j : Fin 64) :
    val_main_v109 (F := Ideal) b (ix2 i j) = b (ix2 (0 : Fin 2) j) := by
  rw [val_main_v109_apply, val_main_v108_apply, val_main_v107_apply, val_main_v106_apply]
  refine congrArg b (funext fun a => Fin.ext ?_)
  have hj := j.isLt
  match a with
  | ⟨0, _⟩ => rfl
  | ⟨1, _⟩ => show j.val % 64 = j.val; omega

theorem bias1_2 (b : (⟨S2x64, .f32⟩ : BufTy).Contents (Elt Ideal)) (i : Fin 50000) (j : Fin 64) :
    val_main_v145 (F := Ideal) b (ix2 i j) = b (ix2 (1 : Fin 2) j) := by
  rw [val_main_v145_apply, val_main_v144_apply, val_main_v143_apply, val_main_v142_apply]
  refine congrArg b (funext fun a => Fin.ext ?_)
  have hj := j.isLt
  match a with
  | ⟨0, _⟩ => rfl
  | ⟨1, _⟩ => show j.val % 64 = j.val; omega

/-! The four products at (i, j): row i of the left operand against column j of the relation's slab. -/

theorem dot0_self2 (x0 : (⟨S50000x128, .f32⟩ : BufTy).Contents (Elt Ideal)) (x1 : (⟨S2x2x800000, .i32⟩ : BufTy).Contents (Elt Ideal)) (x3 x4 : (⟨S2x128x128, .f32⟩ : BufTy).Contents (Elt Ideal)) (x5 : (⟨S2x128, .f32⟩ : BufTy).Contents (Elt Ideal)) (x7 : (⟨S2x128x64, .f32⟩ : BufTy).Contents (Elt Ideal)) (i : Fin 50000) (j : Fin 64) :
    val_main_v100 (F := Ideal) x0 x1 x3 x4 x5 x7 (ix2 i j) = ∑ k : Fin 128, val_main_v73 (F := Ideal) x0 x1 x3 x4 x5 (ix2 i k) * x7 (ix3 (0 : Fin 2) k j) := by
  rw [val_main_v100_apply]
  generalize val_main_v73 (F := Ideal) x0 x1 x3 x4 x5 = m
  refine Finset.sum_congr rfl fun k _ => ?_
  rw [show lidx_main_v100 (ix2 i j) k = ix2 i k from
        funext fun a => by match a with | ⟨0, _⟩ => rfl | ⟨1, _⟩ => rfl,
      show ridx_main_v100 (ix2 i j) k = ix2 k j from
        funext fun a => by match a with | ⟨0, _⟩ => rfl | ⟨1, _⟩ => rfl,
      slab0_self2]

theorem dot0_nbr2 (x0 : (⟨S50000x128, .f32⟩ : BufTy).Contents (Elt Ideal)) (x1 : (⟨S2x2x800000, .i32⟩ : BufTy).Contents (Elt Ideal)) (x3 x4 : (⟨S2x128x128, .f32⟩ : BufTy).Contents (Elt Ideal)) (x5 : (⟨S2x128, .f32⟩ : BufTy).Contents (Elt Ideal)) (x6 : (⟨S2x128x64, .f32⟩ : BufTy).Contents (Elt Ideal)) (i : Fin 50000) (j : Fin 64) :
    val_main_v104 (F := Ideal) x0 x1 x3 x4 x5 x6 (ix2 i j) = ∑ k : Fin 128, val_main_v97 (F := Ideal) x0 x1 x3 x4 x5 (ix2 i k) * x6 (ix3 (0 : Fin 2) k j) := by
  rw [val_main_v104_apply]
  generalize val_main_v97 (F := Ideal) x0 x1 x3 x4 x5 = m
  refine Finset.sum_congr rfl fun k _ => ?_
  rw [show lidx_main_v104 (ix2 i j) k = ix2 i k from
        funext fun a => by match a with | ⟨0, _⟩ => rfl | ⟨1, _⟩ => rfl,
      show ridx_main_v104 (ix2 i j) k = ix2 k j from
        funext fun a => by match a with | ⟨0, _⟩ => rfl | ⟨1, _⟩ => rfl,
      slab0_nbr2]

theorem dot1_self2 (x0 : (⟨S50000x128, .f32⟩ : BufTy).Contents (Elt Ideal)) (x1 : (⟨S2x2x800000, .i32⟩ : BufTy).Contents (Elt Ideal)) (x3 x4 : (⟨S2x128x128, .f32⟩ : BufTy).Contents (Elt Ideal)) (x5 : (⟨S2x128, .f32⟩ : BufTy).Contents (Elt Ideal)) (x7 : (⟨S2x128x64, .f32⟩ : BufTy).Contents (Elt Ideal)) (i : Fin 50000) (j : Fin 64) :
    val_main_v136 (F := Ideal) x0 x1 x3 x4 x5 x7 (ix2 i j) = ∑ k : Fin 128, val_main_v73 (F := Ideal) x0 x1 x3 x4 x5 (ix2 i k) * x7 (ix3 (1 : Fin 2) k j) := by
  rw [val_main_v136_apply]
  generalize val_main_v73 (F := Ideal) x0 x1 x3 x4 x5 = m
  refine Finset.sum_congr rfl fun k _ => ?_
  rw [show lidx_main_v136 (ix2 i j) k = ix2 i k from
        funext fun a => by match a with | ⟨0, _⟩ => rfl | ⟨1, _⟩ => rfl,
      show ridx_main_v136 (ix2 i j) k = ix2 k j from
        funext fun a => by match a with | ⟨0, _⟩ => rfl | ⟨1, _⟩ => rfl,
      slab1_self2]

theorem dot1_nbr2 (x0 : (⟨S50000x128, .f32⟩ : BufTy).Contents (Elt Ideal)) (x1 : (⟨S2x2x800000, .i32⟩ : BufTy).Contents (Elt Ideal)) (x3 x4 : (⟨S2x128x128, .f32⟩ : BufTy).Contents (Elt Ideal)) (x5 : (⟨S2x128, .f32⟩ : BufTy).Contents (Elt Ideal)) (x6 : (⟨S2x128x64, .f32⟩ : BufTy).Contents (Elt Ideal)) (i : Fin 50000) (j : Fin 64) :
    val_main_v140 (F := Ideal) x0 x1 x3 x4 x5 x6 (ix2 i j) = ∑ k : Fin 128, val_main_v133 (F := Ideal) x0 x1 x3 x4 x5 (ix2 i k) * x6 (ix3 (1 : Fin 2) k j) := by
  rw [val_main_v140_apply]
  generalize val_main_v133 (F := Ideal) x0 x1 x3 x4 x5 = m
  refine Finset.sum_congr rfl fun k _ => ?_
  rw [show lidx_main_v140 (ix2 i j) k = ix2 i k from
        funext fun a => by match a with | ⟨0, _⟩ => rfl | ⟨1, _⟩ => rfl,
      show ridx_main_v140 (ix2 i j) k = ix2 k j from
        funext fun a => by match a with | ⟨0, _⟩ => rfl | ⟨1, _⟩ => rfl,
      slab1_nbr2]

set_option maxHeartbeats 400000 in
/-- The second layer's output is the specification's: the six terms are added in the program's order onto the zero
    word's value. -/
theorem ref_layer2 :
    val_main_v146 (F := Ideal) x0 x1 x3 x4 x5 x6 x7 x8 =
      unc2 (layerPre (N := 50000) (O := 64) (cur2 (val_main_v73 (F := Ideal) x0 x1 x3 x4 x5 : S50000x128.Idx → EReal))
        (cur2 (val_main_v97 (F := Ideal) x0 x1 x3 x4 x5 : S50000x128.Idx → EReal))
        (cur2 (val_main_v133 (F := Ideal) x0 x1 x3 x4 x5 : S50000x128.Idx → EReal))
        (cur3 (x7 : S2x128x64.Idx → EReal)) (cur3 (x6 : S2x128x64.Idx → EReal)) (cur2 (x8 : S2x64.Idx → EReal))) := by
  refine ext2 fun i j => ?_
  rw [unc2_ix2, val_main_v146_apply, val_main_v141_apply, val_main_v137_apply, val_main_v110_apply, val_main_v105_apply,
    val_main_v101_apply, zero_v74, dot0_self2, dot0_nbr2, bias0_2, dot1_self2, dot1_nbr2, bias1_2]
  generalize val_main_v73 (F := Ideal) x0 x1 x3 x4 x5 = h
  generalize val_main_v97 (F := Ideal) x0 x1 x3 x4 x5 = m0
  generalize val_main_v133 (F := Ideal) x0 x1 x3 x4 x5 = m1
  rfl

end Cert.Sage.R1
end
-- ==== Proof.RScore.lean ====
/-
  The reference program's side of the edge scores, and the host steps it shares with the kernel's program.

  First, each aggregation stage (the mean of the in-neighbours' rows along one relation) and each row-gathering stage
  (the second layer's rows at a vector of node numbers) of the reference is the corresponding host function applied to
  the stage that feeds it. Second, each score array is the row dot product, from the zero word's value, of the two
  gathered arrays: entry `e` is the zero word's value plus the sum over the 64 features of the products of the entries
  `(e, k)` of the two.
-/
import proofs.«166113_j68092411510980_1_alg».proof.Proof.Gen.ReferenceIdeal.Read
import proofs.«166113_j68092411510980_1_alg».proof.Proof.Spec
import proofs.«166113_j68092411510980_1_alg».proof.Proof.HostFns

set_option maxHeartbeats 400000
noncomputable section
open scoped BigOperators
open Idealize.ShloMosaic Idealize.ShloMosaic.ValueIdx

namespace Cert.Sage.R2
open Cert.ReferenceIdeal Cert.ReferenceIdeal.Read Cert.Sage

variable (x0 : (⟨S50000x128, .f32⟩ : BufTy).Contents (Elt Ideal)) (x1 : (⟨S2x2x800000, .i32⟩ : BufTy).Contents (Elt Ideal))
  (x2 : (⟨S2x800000, .i32⟩ : BufTy).Contents (Elt Ideal))
  (x3 x4 : (⟨S2x128x128, .f32⟩ : BufTy).Contents (Elt Ideal)) (x5 : (⟨S2x128, .f32⟩ : BufTy).Contents (Elt Ideal))
  (x6 x7 : (⟨S2x128x64, .f32⟩ : BufTy).Contents (Elt Ideal)) (x8 : (⟨S2x64, .f32⟩ : BufTy).Contents (Elt Ideal))

/-! ### The host steps shared by the two programs

Each of the reference's aggregation and row-gathering stages is, operation for operation, the host function of the same
name over the same shape constants: the edge rows are a slice and a reshape of the edge list, the start indices are the
node numbers with a negative number counted from the end, the mean is the scattered sum of the gathered rows divided by
the larger of the in-degree and one. Only the stage that feeds the chain (the node features, the first layer's output,
the second layer's output) is left unopened. -/

/-- The mean of the in-neighbours' input features along relation 0. -/
theorem ref_mean0 : val_main_v23 (F := Ideal) x0 x1 = HF.meanOf x0 (HF.edge00 x1) (HF.edge01 x1) := by
  simp only [val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1,
    val_main_cst, val_main_cst_1, val_main_cst_2, val_main_cst_3, val_main_cst_4, val_main_c, val_main_c_0,
    HF.meanOf, HF.edge00, HF.edge01, HF.startCol]
  rfl

/-- The mean of the in-neighbours' input features along relation 1. -/
theorem ref_mean1 : val_main_v59 (F := Ideal) x0 x1 = HF.meanOf x0 (HF.edge10 x1) (HF.edge11 x1) := by
  simp only [val_main_v59, val_main_v58, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_v39, val_main_v38, val_main_v37,
    val_main_cst_7, val_main_cst_8, val_main_cst_9, val_main_cst_10, val_main_c_5, val_main_c_6,
    HF.meanOf, HF.edge10, HF.edge11, HF.startCol]
  rfl

/-- The mean of the in-neighbours' first-layer outputs along relation 0. -/
theorem ref_mean0' : val_main_v97 (F := Ideal) x0 x1 x3 x4 x5 =
    HF.meanOf (val_main_v73 (F := Ideal) x0 x1 x3 x4 x5) (HF.edge00 x1) (HF.edge01 x1) := by
  simp only [val_main_v97, val_main_v96, val_main_v95, val_main_v94, val_main_v93, val_main_v92, val_main_v91, val_main_v90,
    val_main_v89, val_main_v88, val_main_v87, val_main_v86, val_main_v85, val_main_v84, val_main_v83, val_main_v82,
    val_main_v81, val_main_v80, val_main_v79, val_main_v78, val_main_v77, val_main_v76, val_main_v75,
    val_main_cst_14, val_main_cst_15, val_main_cst_16, val_main_cst_17, val_main_c_12, val_main_c_13,
    HF.meanOf, HF.edge00, HF.edge01, HF.startCol]
  rfl

/-- The mean of the in-neighbours' first-layer outputs along relation 1. -/
theorem ref_mean1' : val_main_v133 (F := Ideal) x0 x1 x3 x4 x5 =
    HF.meanOf (val_main_v73 (F := Ideal) x0 x1 x3 x4 x5) (HF.edge10 x1) (HF.edge11 x1) := by
  simp only [val_main_v133, val_main_v132, val_main_v131, val_main_v130, val_main_v129, val_main_v128, val_main_v127, val_main_v126,
    val_main_v125, val_main_v124, val_main_v123, val_main_v122, val_main_v121, val_main_v120, val_main_v119, val_main_v118,
    val_main_v117, val_main_v116, val_main_v115, val_main_v114, val_main_v113, val_main_v112, val_main_v111,
    val_main_cst_20, val_main_cst_21, val_main_cst_22, val_main_cst_23, val_main_c_18, val_main_c_19,
    HF.meanOf, HF.edge10, HF.edge11, HF.startCol]
  rfl

/-- The second layer's rows at the sources of relation 0's edges. -/
theorem ref_take_p0 : val_main_v155 (F := Ideal) x0 x1 x3 x4 x5 x6 x7 x8 =
    HF.takeRows (val_main_v146 (F := Ideal) x0 x1 x3 x4 x5 x6 x7 x8) (HF.edge00 x1) := by
  simp only [val_main_v155, val_main_v154, val_main_v153, val_main_v152, val_main_v151, val_main_v150, val_main_v149, val_main_v148,
    val_main_v147, val_main_c_24, val_main_c_25, HF.takeRows, HF.edge00, HF.startCol]
  rfl

/-- The second layer's rows at the destinations of relation 0's edges. -/
theorem ref_take_p1 : val_main_v164 (F := Ideal) x0 x1 x3 x4 x5 x6 x7 x8 =
    HF.takeRows (val_main_v146 (F := Ideal) x0 x1 x3 x4 x5 x6 x7 x8) (HF.edge01 x1) := by
  simp only [val_main_v164, val_main_v163, val_main_v162, val_main_v161, val_main_v160, val_main_v159, val_main_v158, val_main_v157,
    val_main_v156, val_main_c_26, val_main_c_27, HF.takeRows, HF.edge01, HF.startCol]
  rfl

/-- The second layer's rows at the first members of the negative pairs. -/
theorem ref_take_n0 : val_main_v175 (F := Ideal) x0 x1 x2 x3 x4 x5 x6 x7 x8 =
    HF.takeRows (val_main_v146 (F := Ideal) x0 x1 x3 x4 x5 x6 x7 x8) (HF.negRow0 x2) := by
  simp only [val_main_v175, val_main_v174, val_main_v173, val_main_v172, val_main_v171, val_main_v170, val_main_v169, val_main_v168,
    val_main_v167, val_main_c_29, val_main_c_30, HF.takeRows, HF.negRow0, HF.startCol]
  rfl

/-- The second layer's rows at the second members of the negative pairs. -/
theorem ref_take_n1 : val_main_v184 (F := Ideal) x0 x1 x2 x3 x4 x5 x6 x7 x8 =
    HF.takeRows (val_main_v146 (F := Ideal) x0 x1 x3 x4 x5 x6 x7 x8) (HF.negRow1 x2) := by
  simp only [val_main_v184, val_main_v183, val_main_v182, val_main_v181, val_main_v180, val_main_v179, val_main_v178, val_main_v177,
    val_main_v176, val_main_c_31, val_main_c_32, HF.takeRows, HF.negRow1, HF.startCol]
  rfl

/-! ### The edge scores

A score is the sum along the 64 features, started from the zero word's value, of the elementwise product of two
gathered arrays; entry `e` of the result depends on the entries `(e, k)`, `k < 64`, of both. -/

/-- The entry of the product array that the sum for edge `e` reads at feature `k` (positive pairs). -/
theorem idx_score0 (e : Fin 800000) (k : Fin 64) : idx_main_v166 (ix1 e) k = ix2 e k :=
  funext fun a => Fin.ext (by match a with | ⟨0, _⟩ => rfl | ⟨1, _⟩ => rfl)

/-- The entry of the product array that the sum for pair `e` reads at feature `k` (negative pairs). -/
theorem idx_score1 (e : Fin 800000) (k : Fin 64) : idx_main_v186 (ix1 e) k = ix2 e k :=
  funext fun a => Fin.ext (by match a with | ⟨0, _⟩ => rfl | ⟨1, _⟩ => rfl)

/-- The scores of relation 0's edges are the row dot products of the rows gathered at their two endpoints. -/
theorem ref_score0 :
    val_main_v166 (F := Ideal) x0 x1 x3 x4 x5 x6 x7 x8 =
      unc1 (rowDot (E := 800000) (cur2 (val_main_v155 (F := Ideal) x0 x1 x3 x4 x5 x6 x7 x8 : S800000x64.Idx → EReal))
        (cur2 (val_main_v164 (F := Ideal) x0 x1 x3 x4 x5 x6 x7 x8 : S800000x64.Idx → EReal))) := by
  refine ext1 fun e => ?_
  rw [val_main_v166_apply, unc1_ix1]
  simp only [val_main_cst_28_apply, val_main_v165_apply, idx_score0, Ideal.ofBits_def, Ideal.mulf_def]
  generalize val_main_v155 (F := Ideal) x0 x1 x3 x4 x5 x6 x7 x8 = A
  generalize val_main_v164 (F := Ideal) x0 x1 x3 x4 x5 x6 x7 x8 = B
  rfl

/-- The scores of the negative pairs are the row dot products of the rows gathered at their two members. -/
theorem ref_score1 :
    val_main_v186 (F := Ideal) x0 x1 x2 x3 x4 x5 x6 x7 x8 =
      unc1 (rowDot (E := 800000) (cur2 (val_main_v175 (F := Ideal) x0 x1 x2 x3 x4 x5 x6 x7 x8 : S800000x64.Idx → EReal))
        (cur2 (val_main_v184 (F := Ideal) x0 x1 x2 x3 x4 x5 x6 x7 x8 : S800000x64.Idx → EReal))) := by
  refine ext1 fun e => ?_
  rw [val_main_v186_apply, unc1_ix1]
  simp only [val_main_cst_33_apply, val_main_v185_apply, idx_score1, Ideal.ofBits_def, Ideal.mulf_def]
  generalize val_main_v175 (F := Ideal) x0 x1 x2 x3 x4 x5 x6 x7 x8 = A
  generalize val_main_v184 (F := Ideal) x0 x1 x2 x3 x4 x5 x6 x7 x8 = B
  rfl

end Cert.Sage.R2
end
-- ==== Proof.RValue.lean ====
/-
  The idealized reference program's two results as the model's functions of the arguments: its stages for the two
  dense layers are the specification's layers of its stages for the means, those are the mean aggregations of the
  previous layer, its gathers are rows of the second layer's output, and its two sums are the row products.
-/
import proofs.«166113_j68092411510980_1_alg».proof.Proof.Gen.ReferenceIdeal.Read
import proofs.«166113_j68092411510980_1_alg».proof.Proof.RLayer
import proofs.«166113_j68092411510980_1_alg».proof.Proof.RScore
import proofs.«166113_j68092411510980_1_alg».proof.Proof.Model

noncomputable section

namespace Cert.Sage.RValue

open Cert.ReferenceIdeal Cert.ReferenceIdeal.Read Cert.Sage
open Idealize.ShloMosaic Idealize.ShloMosaic.ValueIdx

variable (x0 : (⟨S50000x128, .f32⟩ : BufTy).Contents (Elt Ideal)) (x1 : (⟨S2x2x800000, .i32⟩ : BufTy).Contents (Elt Ideal))
  (x2 : (⟨S2x800000, .i32⟩ : BufTy).Contents (Elt Ideal))
  (x3 x4 : (⟨S2x128x128, .f32⟩ : BufTy).Contents (Elt Ideal)) (x5 : (⟨S2x128, .f32⟩ : BufTy).Contents (Elt Ideal))
  (x6 x7 : (⟨S2x128x64, .f32⟩ : BufTy).Contents (Elt Ideal)) (x8 : (⟨S2x64, .f32⟩ : BufTy).Contents (Elt Ideal))

/-- The first layer's output. -/
theorem hidden_eq : val_main_v73 (F := Ideal) x0 x1 x3 x4 x5 = Model.hidden x0 x1 x3 x4 x5 := by
  rw [R1.ref_layer1 x0 x1 x3 x4 x5, R2.ref_mean0 x0 x1, R2.ref_mean1 x0 x1]
  rfl

/-- The second layer's output. -/
theorem embed_eq : val_main_v146 (F := Ideal) x0 x1 x3 x4 x5 x6 x7 x8 = Model.embed x0 x1 x3 x4 x5 x6 x7 x8 := by
  rw [R1.ref_layer2 x0 x1 x3 x4 x5 x6 x7 x8, R2.ref_mean0' x0 x1 x3 x4 x5, R2.ref_mean1' x0 x1 x3 x4 x5, hidden_eq x0 x1 x3 x4 x5]
  rfl

/-- The scores of relation 0's edges. -/
theorem pos_eq : val_main_v166 (F := Ideal) x0 x1 x3 x4 x5 x6 x7 x8 = Model.posScore x0 x1 x3 x4 x5 x6 x7 x8 := by
  rw [R2.ref_score0 x0 x1 x3 x4 x5 x6 x7 x8, R2.ref_take_p0 x0 x1 x3 x4 x5 x6 x7 x8, R2.ref_take_p1 x0 x1 x3 x4 x5 x6 x7 x8, embed_eq x0 x1 x3 x4 x5 x6 x7 x8]
  rfl

/-- The scores of the negative pairs. -/
theorem neg_eq : val_main_v186 (F := Ideal) x0 x1 x2 x3 x4 x5 x6 x7 x8 = Model.negScore x0 x1 x2 x3 x4 x5 x6 x7 x8 := by
  rw [R2.ref_score1 x0 x1 x2 x3 x4 x5 x6 x7 x8, R2.ref_take_n0 x0 x1 x2 x3 x4 x5 x6 x7 x8, R2.ref_take_n1 x0 x1 x2 x3 x4 x5 x6 x7 x8, embed_eq x0 x1 x3 x4 x5 x6 x7 x8]
  rfl

end Cert.Sage.RValue

end
-- ==== Proof.lean ====
/-
  A two-layer relational mean-aggregation network on 50000 nodes (features 128 → 128 → 64, two relations of 800000
  edges each) followed by dot-product scores of 800000 edges of relation 0 and of 800000 negative pairs: the kernel
  program computes the two dense layers and the scores in three grid regions (rows of 1000 nodes, respectively 8000
  pairs, per grid point) and everything else on the host; the reference computes everything on the host.

  At the ideal values both programs compute the same functions of the arguments (`Cert.Sage.Model`):
  * each layer, at node `i` and output feature `j`, adds to the zero word's value — for relation 0 and then relation 1 —
    the node's feature row times the self weights, the mean of its in-neighbours' rows times the neighbour weights and
    the bias, in that one order on both sides (`Cert.Sage.layerPre`; the first layer is cut off below at zero); a
    matrix product into the zero accumulator and the host's contraction are the same sum over the 128 inner
    coordinates, a change of float format is the identity, and the tiling by rows does not enter a row's value;
  * the mean aggregation (gather of the sources' rows, scatter-add onto the destinations, division by the in-degree or 1)
    and the row gathers are the same host operations in both programs, applied to equal operands: they are carried
    as functions and never opened;
  * a score is the sum over the 64 features of the products of the two endpoints' rows; the kernel program computes
    the positive and the negative pairs' scores as one column of 1600000 and cuts it in two, the reference computes
    them apart, and its sum starts from the zero word, whose value is 0.
  No law used needs a finite operand, so the precondition is not opened. The idealization rewrote nothing, so
  `preserves` is `True`. The two kernel frames are the generated ones; the reference's frame is its run with the
  results dropped.
-/
import proofs.«166113_j68092411510980_1_alg».proof.Defs
import proofs.«166113_j68092411510980_1_alg».proof.Proof.Gen.Kernel
import proofs.«166113_j68092411510980_1_alg».proof.Proof.Gen.Kernel.Frame
import proofs.«166113_j68092411510980_1_alg».proof.Proof.Gen.KernelIdeal
import proofs.«166113_j68092411510980_1_alg».proof.Proof.Gen.KernelIdeal.Frame
import proofs.«166113_j68092411510980_1_alg».proof.Proof.Gen.ReferenceIdeal
import proofs.«166113_j68092411510980_1_alg».proof.Proof.Gen.ReferenceIdeal.Run
import proofs.«166113_j68092411510980_1_alg».proof.Proof.Gen.ReferenceIdeal.Read
import proofs.«166113_j68092411510980_1_alg».proof.Proof.Gen.Pre_finite_inputs
import proofs.«166113_j68092411510980_1_alg».proof.Proof.KRun
import proofs.«166113_j68092411510980_1_alg».proof.Proof.KValue
import proofs.«166113_j68092411510980_1_alg».proof.Proof.RValue
import Idealize.ShloMosaic.Adequacy
import Idealize.ShloMosaic.Init

noncomputable section

namespace Cert.Proof

open Idealize.ShloMosaic Idealize.SL.Sem

/-- The printed kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the positive scores and the negative scores the model assigns to the arguments. -/
theorem algebraic : Cert.algebraic_KernelIdeal_ReferenceIdeal := by
  intro m ρ m' ρ' _ hagree
  refine ⟨fun c => Cert.Sage.Model.posScore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Sage.Model.negScore (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Sage.KValue.W7_v140 m ρ c), (h c).2.1.trans (Cert.Sage.KValue.W7_v141 m ρ c), (h c).2.2⟩)
      (Cert.Sage.KRun.run_named (F := Ideal) m ρ)
  · refine (θ_run Cert.ReferenceIdeal.defs _ _).mono (fun r h c => ?_) (Cert.ReferenceIdeal.Value.run (F := Ideal) m' ρ')
    obtain ⟨a0, a1, a2, a3, a4, a5, a6, a7, a8⟩ := hagree c
    refine ⟨(h c).1.trans ?_, (h c).2.1.trans ?_, (h c).2.2⟩
    · rw [Cert.ReferenceIdeal.Read.val_main_v166_eq, Cert.Sage.RValue.pos_eq, a0, a1, a3, a4, a5, a6, a7, a8]
    · rw [Cert.ReferenceIdeal.Read.val_main_v186_eq, Cert.Sage.RValue.neg_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
